-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x576x256 : Shape := ⟨3, ![32, 576, 256]⟩
abbrev S32x32x256 : Shape := ⟨3, ![32, 32, 256]⟩
abbrev S1 : Shape := ⟨1, ![1]⟩
abbrev S32 : Shape := ⟨1, ![32]⟩
abbrev S_ : Shape := ⟨0, ![]⟩

class Facts : Prop where
  bcast_S_S32x576x256 : S_.BroadcastsInDim S32x576x256 (![] : Fin 0 → Fin S32x576x256.rank)
  reducesTo_S32x576x256_S_d0_1_2 : S32x576x256.ReducesTo [0, 1, 2] S_
  h_S_ : 0 < S_.numel
  bcast_S_S32x32x256 : S_.BroadcastsInDim S32x32x256 (![] : Fin 0 → Fin S32x32x256.rank)
  reducesTo_S32x32x256_S_d0_1_2 : S32x32x256.ReducesTo [0, 1, 2] S_
  bcast_S_S1 : S_.BroadcastsInDim S1 (![] : Fin 0 → Fin S1.rank)
  reducesTo_S1_S_d0 : S1.ReducesTo [0] S_
  bcast_S_S32 : S_.BroadcastsInDim S32 (![] : Fin 0 → Fin S32.rank)
  reducesTo_S32_S_d0 : S32.ReducesTo [0] S_

variable [Facts]

def fn_part1 {F : FTy → Type} [FloatOps F] (main_arg4 : IVec S32 32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_c_6 : IVec S_ 32 := constantI S_ 32 0#32
  let main_v19 : IVec S32 32 := broadcastInDim S32 ![] bcast_S_S32 main_c_6
  let main_v20 : IVec S32 1 := cmpi .ne main_arg4 main_v19
  let main_c_7 : IVec S_ 1 := constantI S_ 1 1#1
  let main_v21 : IVec S_ 1 := (fun x v => Host.reduce IntOp.andi x v reducesTo_S32_S_d0 h_S_) main_v20 main_c_7
  let main_v22 : IVec S_ 1 := andi main_v18 main_v21
  main_v22

def fn {F : FTy → Type} [FloatOps F] (main_arg0 : FVec F S32x576x256 .f32) (main_arg1 : FVec F S32x32x256 .f32) (main_arg2 : FVec F S1 .f32) (main_arg3 : FVec F S1 .f32) (main_arg4 : IVec S32 32) : IVec S_ 1 :=
  let main_v0 : FVec F S32x576x256 .f32 := Host.absf main_arg0
  let main_cst : FVec F S_ .f32 := constant S_ .f32 0x7F800000#32
  let main_v1 : FVec F S32x576x256 .f32 := broadcastInDim S32x576x256 ![] bcast_S_S32x576x256 main_cst
  let main_v2 : IVec S32x576x256 1 := cmpf .olt main_v0 main_v1
  let main_c : IVec S_ 1 := constantI S_ 1 1#1
  let main_v3 : IVec S_ 1 := (fun x v => Host.reduce IntOp.andi x v reducesTo_S32x576x256_S_d0_1_2 h_S_) main_v2 main_c
  let main_v4 : FVec F S32x32x256 .f32 := Host.absf main_arg1
  let main_cst_0 : FVec F S_ .f32 := constant S_ .f32 0x7F800000#32
  let main_v5 : FVec F S32x32x256 .f32 := broadcastInDim S32x32x256 ![] bcast_S_S32x32x256 main_cst_0
  let main_v6 : IVec S32x32x256 1 := cmpf .olt main_v4 main_v5
  let main_c_1 : IVec S_ 1 := constantI S_ 1 1#1
  let main_v7 : IVec S_ 1 := (fun x v => Host.reduce IntOp.andi x v reducesTo_S32x32x256_S_d0_1_2 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg4 main_v13 main_v16
-- ==== Kernel.lean ====
abbrev S32x576x256 : Shape := ⟨3, ![32, 576, 256]⟩
abbrev S32x32x256 : Shape := ⟨3, ![32, 32, 256]⟩
abbrev S1 : Shape := ⟨1, ![1]⟩
abbrev S32 : Shape := ⟨1, ![32]⟩
abbrev S_ : Shape := ⟨0, ![]⟩
abbrev S32x576 : Shape := ⟨2, ![32, 576]⟩
abbrev S32x576x1 : Shape := ⟨3, ![32, 576, 1]⟩
abbrev S32x32 : Shape := ⟨2, ![32, 32]⟩
abbrev S32x32x1 : Shape := ⟨3, ![32, 32, 1]⟩
abbrev S1024x256 : Shape := ⟨2, ![1024, 256]⟩
abbrev S256x1024 : Shape := ⟨2, ![256, 1024]⟩
abbrev S1x32 : Shape := ⟨2, ![1, 32]⟩
abbrev S32x1 : Shape := ⟨2, ![32, 1]⟩
abbrev S1024 : Shape := ⟨1, ![1024]⟩
abbrev S1024x1 : Shape := ⟨2, ![1024, 1]⟩
abbrev S1024x32 : Shape := ⟨2, ![1024, 32]⟩
abbrev S8x576x256 : Shape := ⟨3, ![8, 576, 256]⟩
abbrev S8x32 : Shape := ⟨2, ![8, 32]⟩
abbrev S1x576x256 : Shape := ⟨3, ![1, 576, 256]⟩
abbrev S576x256 : Shape := ⟨2, ![576, 256]⟩
abbrev S576x1024 : Shape := ⟨2, ![576, 1024]⟩
abbrev S1x1024 : Shape := ⟨2, ![1, 1024]⟩

abbrev nBuf : Space → Nat
  | .hbm => 144
  | .vmem => 6
  | .smem => 0
  | _ => 0

abbrev hbmTy0_0 (i : Nat) : BufTy := match i % 128 with
  | 0 => ⟨S32x576x256, .f32⟩
  | 1 => ⟨S32x32x256, .f32⟩
  | 2 => ⟨S1, .f32⟩
  | 3 => ⟨S1, .f32⟩
  | 4 => ⟨S32, .i32⟩
  | 5 => ⟨S32x576x256, .f32⟩
  | 6 => ⟨S_, .f32⟩
  | 7 => ⟨S32x576, .f32⟩
  | 8 => ⟨S32x576x1, .f32⟩
  | 9 => ⟨S32x576x1, .f32⟩
  | 10 => ⟨S_, .f32⟩
  | 11 => ⟨S32x576x1, .f32⟩
  | 12 => ⟨S32x576x1, .f32⟩
  | 13 => ⟨S32x576x256, .f32⟩
  | 14 => ⟨S32x576x256, .f32⟩
  | 15 => ⟨S32x32x256, .f32⟩
  | 16 => ⟨S_, .f32⟩
  | 17 => ⟨S32x32, .f32⟩
  | 18 => ⟨S32x32x1, .f32⟩
  | 19 => ⟨S32x32x1, .f32⟩
  | 20 => ⟨S_, .f32⟩
  | 21 => ⟨S32x32x1, .f32⟩
  | 22 => ⟨S32x32x1, .f32⟩
  | 23 => ⟨S32x32x256, .f32⟩
  | 24 => ⟨S32x32x256, .f32⟩
  | 25 => ⟨S32x576x256, .bf16⟩
  | 26 => ⟨S32x32x256, .bf16⟩
  | 27 => ⟨S1024x256, .bf16⟩
  | 28 => ⟨S256x1024, .bf16⟩
  | 29 => ⟨S32, .i32⟩
  | 30 => ⟨S1x32, .i32⟩
  | 31 => ⟨S32x1, .i32⟩
  | 32 => ⟨S32x32, .i32⟩
  | 33 => ⟨S32x32, .i32⟩
  | 34 => ⟨S32x32, .i1⟩
  | 35 => ⟨S32x32, .f32⟩
  | 36 => ⟨S32, .f32⟩
  | 37 => ⟨S_, .f32⟩
  | 38 => ⟨S32, .f32⟩
  | 39 => ⟨S32, .i1⟩
  | 40 => ⟨S_, .f32⟩
  | 41 => ⟨S32, .f32⟩
  | 42 => ⟨S32, .f32⟩
  | 43 => ⟨S_, .f32⟩
  | 44 => ⟨S32, .f32⟩
  | 45 => ⟨S32, .f32⟩
  | 46 => ⟨S_, .f32⟩
  | 47 => ⟨S_, .f32⟩
  | 48 => ⟨S32, .f32⟩
  | 49 => ⟨S32, .f32⟩
  | 50 => ⟨S32x1, .f32⟩
  | 51 => ⟨S32x32, .f32⟩
  | 52 => ⟨S32x32, .f32⟩
  | 53 => ⟨S1024, .i32⟩
  | 54 => ⟨S_, .i32⟩
  | 55 => ⟨S_, .i32⟩
  | 56 => ⟨S1024, .i32⟩
  | 57 => ⟨S1024, .i32⟩
  | 58 => ⟨S1024, .i32⟩
  | 59 => ⟨S_, .i32⟩
  | 60 => ⟨S1024, .i32⟩
  | 61 => ⟨S1024, .i1⟩
  | 62 => ⟨S1024, .i32⟩
  | 63 => ⟨S1024, .i32⟩
  | 64 => ⟨S_, .i32⟩
  | 65 => ⟨S1024, .i32⟩
  | 66 => ⟨S1024, .i1⟩
  | 67 => ⟨S1024, .i1⟩
  | 68 => ⟨S_, .i32⟩
  | 69 => ⟨S1024, .i32⟩
  | 70 => ⟨S1024, .i32⟩
  | 71 => ⟨S1024, .i32⟩
  | 72 => ⟨S1024x1, .i32⟩
  | 73 => ⟨S32, .i32⟩
  | 74 => ⟨S1x32, .i32⟩
  | 75 => ⟨S1024x32, .i32⟩
  | 76 => ⟨S1024x32, .i32⟩
  | 77 => ⟨S1024x32, .i1⟩
  | 78 => ⟨S1024, .f32⟩
  | 79 => ⟨S1024x1, .f32⟩
  | 80 => ⟨S_, .f32⟩
  | 81 => ⟨S_, .f32⟩
  | 82 => ⟨S1024x32, .f32⟩
  | 83 => ⟨S1024x32, .f32⟩
  | 84 => ⟨S1024x32, .f32⟩
  | 85 => ⟨S32x32, .f32⟩
  | 86 => ⟨S_, .f32⟩
  | 87 => ⟨S_, .f32⟩
  | 88 => ⟨S_, .f32⟩
  | 89 => ⟨S1, .f32⟩
  | 90 => ⟨S1, .f32⟩
  | 91 => ⟨S_, .f32⟩
  | 92 => ⟨S1, .f32⟩
  | 93 => ⟨S1, .f32⟩
  | 94 => ⟨S1, .f32⟩
  | 95 => ⟨S_, .f32⟩
  | 96 => ⟨S32x32, .f32⟩
  | 97 => ⟨S32x32, .f32⟩
  | 98 => ⟨S_, .f32⟩
  | 99 => ⟨S32x32, .f32⟩
  | 100 => ⟨S32x32, .f32⟩
  | 101 => ⟨S_, .f32⟩
  | 102 => ⟨S_, .f32⟩
  | 103 => ⟨S_, .f32⟩
  | 104 => ⟨S32x32, .f32⟩
  | 105 => ⟨S32x32, .f32⟩
  | 106 => ⟨S_, .f32⟩
  | 107 => ⟨S32x32, .f32⟩
  | 108 => ⟨S32x32, .f32⟩
  | 109 => ⟨S32x32, .i32⟩
  | 110 => ⟨S32x32, .i32⟩
  | 111 => ⟨S_, .i32⟩
  | 112 => ⟨S32x32, .i32⟩
  | 113 => ⟨S32x32, .i32⟩
  | 114 => ⟨S32x32, .i1⟩
  | 115 => ⟨S32x32, .f32⟩
  | 116 => ⟨S_, .f32⟩
  | 117 => ⟨S32x32, .f32⟩
  | 118 => ⟨S32x32, .f32⟩
  | 119 => ⟨S_, .f32⟩
  | 120 => ⟨S32x32, .f32⟩
  | 121 => ⟨S32x32, .f32⟩
  | 122 => ⟨S32x32, .f32⟩
  | 123 => ⟨S32x32, .f32⟩
  | 124 => ⟨S_, .f32⟩
  | 125 => ⟨S32x32, .f32⟩
  | 126 => ⟨S32x32, .f32⟩
  | 127 => ⟨S32x32, .f32⟩
  | _ => ⟨S32x576x256, .f32⟩

abbrev hbmTy0_1 (i : Nat) : BufTy := match i % 128 with
  | 0 => ⟨S32x32, .f32⟩
  | 1 => ⟨S32x32, .i1⟩
  | 2 => ⟨S32x32, .f32⟩
  | 3 => ⟨S32x32, .f32⟩
  | 4 => ⟨S32x32, .f32⟩
  | 5 => ⟨S32x32, .f32⟩
  | 6 => ⟨S32x32, .f32⟩
  | 7 => ⟨S32x32, .f32⟩
  | 8 => ⟨S32x32, .f32⟩
  | 9 => ⟨S32x32, .f32⟩
  | 10 => ⟨S32x32, .f32⟩
  | 11 => ⟨S_, .f32⟩
  | 12 => ⟨S_, .f32⟩
  | 13 => ⟨S_, .f32⟩
  | 14 => ⟨S_, .f32⟩
  | 15 => ⟨S_, .f32⟩
  | _ => ⟨S32x576x256, .f32⟩

abbrev hbmTy (i : Nat) : BufTy := match i / 128 with
  | 0 => hbmTy0_0 i
  | 1 => hbmTy0_1 i
  | _ => ⟨S32x576x256, .f32⟩

abbrev bufTy : (tb : Table) → Fin (tcTables nBuf tb) → BufTy
  | .hbm, ⟨i, _⟩ => hbmTy i
  | .local _ .vmem, ⟨0, _⟩ => ⟨S8x576x256, .bf16⟩
  | .local _ .vmem, ⟨1, _⟩ => ⟨S8x576x256, .bf16⟩
  | .local _ .vmem, ⟨2, _⟩ => ⟨S256x1024, .bf16⟩
  | .local _ .vmem, ⟨3, _⟩ => ⟨S1024x32, .f32⟩
  | .local _ .vmem, ⟨4, _⟩ => ⟨S8x32, .f32⟩
  | .local _ .vmem, ⟨5, _⟩ => ⟨S8x32, .f32⟩
  | _, _ => ⟨S32x576x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call1_v0 : Ref sig .tc := ⟨.hbm, 15, rfl⟩
abbrev main_call1_cst : Ref sig .tc := ⟨.hbm, 16, rfl⟩
abbrev main_call1_v1 : Ref sig .tc := ⟨.hbm, 17, rfl⟩
abbrev main_call1_v2 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_1 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_call2_v0 : Ref sig .tc := ⟨.hbm, 47, rfl⟩
abbrev main_call2_v1 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c : Ref sig .tc := ⟨.hbm, 54, rfl⟩
abbrev main_call3_v0 : Ref sig .tc := ⟨.hbm, 55, rfl⟩
abbrev main_call3_v1 : Ref sig .tc := ⟨.hbm, 56, rfl⟩
abbrev main_call3_v2 : Ref sig .tc := ⟨.hbm, 57, rfl⟩
abbrev main_call3_v3 : Ref sig .tc := ⟨.hbm, 58, rfl⟩
abbrev main_call3_v4 : Ref sig .tc := ⟨.hbm, 59, rfl⟩
abbrev main_call3_v5 : Ref sig .tc := ⟨.hbm, 60, rfl⟩
abbrev main_call3_v6 : Ref sig .tc := ⟨.hbm, 61, rfl⟩
abbrev main_call3_v7 : Ref sig .tc := ⟨.hbm, 62, rfl⟩
abbrev main_call3_v8 : Ref sig .tc := ⟨.hbm, 63, rfl⟩
abbrev main_call3_c : Ref sig .tc := ⟨.hbm, 64, rfl⟩
abbrev main_call3_v9 : Ref sig .tc := ⟨.hbm, 65, rfl⟩
abbrev main_call3_v10 : Ref sig .tc := ⟨.hbm, 66, rfl⟩
abbrev main_call3_v11 : Ref sig .tc := ⟨.hbm, 67, rfl⟩
abbrev main_call3_c_0 : Ref sig .tc := ⟨.hbm, 68, rfl⟩
abbrev main_call3_v12 : Ref sig .tc := ⟨.hbm, 69, rfl⟩
abbrev main_call3_v13 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_cst_5 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v42 : Ref sig .tc := ⟨.hbm, 84, rfl⟩
abbrev main_v43 : Ref sig .tc := ⟨.hbm, 85, rfl⟩
abbrev main_cst_6 : Ref sig .tc := ⟨.hbm, 86, rfl⟩
abbrev main_cst_7 : Ref sig .tc := ⟨.hbm, 87, rfl⟩
abbrev main_call5_v0 : Ref sig .tc := ⟨.hbm, 88, rfl⟩
abbrev main_call5_v1 : Ref sig .tc := ⟨.hbm, 89, rfl⟩
abbrev main_call5_v2 : Ref sig .tc := ⟨.hbm, 90, rfl⟩
abbrev main_call5_v3 : Ref sig .tc := ⟨.hbm, 91, rfl⟩
abbrev main_call5_v4 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_cst_8 : Ref sig .tc := ⟨.hbm, 101, rfl⟩
abbrev main_cst_9 : Ref sig .tc := ⟨.hbm, 102, rfl⟩
abbrev main_call6_v0 : Ref sig .tc := ⟨.hbm, 103, rfl⟩
abbrev main_call6_v1 : Ref sig .tc := ⟨.hbm, 104, rfl⟩
abbrev main_call6_v2 : Ref sig .tc := ⟨.hbm, 105, rfl⟩
abbrev main_call6_v3 : Ref sig .tc := ⟨.hbm, 106, rfl⟩
abbrev main_call6_v4 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_c_10 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_cst_11 : Ref sig .tc := ⟨.hbm, 116, rfl⟩
abbrev main_v59 : Ref sig .tc := ⟨.hbm, 117, rfl⟩
abbrev main_v60 : Ref sig .tc := ⟨.hbm, 118, rfl⟩
abbrev main_cst_12 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_call7_v0 : Ref sig .tc := ⟨.hbm, 123, rfl⟩
abbrev main_call7_call0_cst : Ref sig .tc := ⟨.hbm, 124, rfl⟩
abbrev main_call7_call0_v0 : Ref sig .tc := ⟨.hbm, 125, rfl⟩
abbrev main_call7_call0_v1 : Ref sig .tc := ⟨.hbm, 126, rfl⟩
abbrev main_call7_call0_v2 : Ref sig .tc := ⟨.hbm, 127, rfl⟩
abbrev main_call7_call0_v3 : Ref sig .tc := ⟨.hbm, 128, rfl⟩
abbrev main_call7_call0_v4 : Ref sig .tc := ⟨.hbm, 129, rfl⟩
abbrev main_call7_call0_v5 : Ref sig .tc := ⟨.hbm, 130, rfl⟩
abbrev main_call7_call0_v6 : Ref sig .tc := ⟨.hbm, 131, rfl⟩
abbrev main_call7_call0_v7 : Ref sig .tc := ⟨.hbm, 132, rfl⟩
abbrev main_call7_call0_v8 : Ref sig .tc := ⟨.hbm, 133, rfl⟩
abbrev main_call7_call0_v9 : Ref sig .tc := ⟨.hbm, 134, rfl⟩
abbrev main_call7_call0_v10 : Ref sig .tc := ⟨.hbm, 135, rfl⟩
abbrev main_call7_call0_v11 : Ref sig .tc := ⟨.hbm, 136, rfl⟩
abbrev main_call7_v1 : Ref sig .tc := ⟨.hbm, 137, rfl⟩
abbrev main_v64 : Ref sig .tc := ⟨.hbm, 138, rfl⟩
abbrev main_cst_13 : Ref sig .tc := ⟨.hbm, 139, rfl⟩
abbrev main_v65 : Ref sig .tc := ⟨.hbm, 140, rfl⟩
abbrev main_cst_14 : Ref sig .tc := ⟨.hbm, 141, rfl⟩
abbrev main_v66 : Ref sig .tc := ⟨.hbm, 142, rfl⟩
abbrev main_v67 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x576x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S32x576x256_S32x576_d2 : S32x576x256.ReducesTo [2] S32x576
  h_S_ : 0 < S_.numel
  bcast_S32x576_S32x576x1_0_1 : S32x576.BroadcastsInDim S32x576x1 (![0, 1] : Fin 2 → Fin S32x576x1.rank)
  bcast_S_S32x576x1 : S_.BroadcastsInDim S32x576x1 (![] : Fin 0 → Fin S32x576x1.rank)
  bcast_S32x576x1_S32x576x256_0_1_2 : S32x576x1.BroadcastsInDim S32x576x256 (![0, 1, 2] : Fin 3 → Fin S32x576x256.rank)
  reducesTo_S32x32x256_S32x32_d2 : S32x32x256.ReducesTo [2] S32x32
  bcast_S32x32_S32x32x1_0_1 : S32x32.BroadcastsInDim S32x32x1 (![0, 1] : Fin 2 → Fin S32x32x1.rank)
  bcast_S_S32x32x1 : S_.BroadcastsInDim S32x32x1 (![] : Fin 0 → Fin S32x32x1.rank)
  bcast_S32x32x1_S32x32x256_0_1_2 : S32x32x1.BroadcastsInDim S32x32x256 (![0, 1, 2] : Fin 3 → Fin S32x32x256.rank)
  bitsLt_bf16_f32 : FTy.bits .bf16 < FTy.bits .f32
  shapeCasts_S32x32x256_S1024x256 : S32x32x256.ShapeCasts S1024x256
  transposes_S1024x256_S256x1024_1_0 : S1024x256.Transposes [1, 0] S256x1024
  bcast_S32_S1x32_1 : S32.BroadcastsInDim S1x32 (![1] : Fin 1 → Fin S1x32.rank)
  bcast_S32_S32x1_0 : S32.BroadcastsInDim S32x1 (![0] : Fin 1 → Fin S32x1.rank)
  bcast_S1x32_S32x32_0_1 : S1x32.BroadcastsInDim S32x32 (![0, 1] : Fin 2 → Fin S32x32.rank)
  bcast_S32x1_S32x32_0_1 : S32x1.BroadcastsInDim S32x32 (![0, 1] : Fin 2 → Fin S32x32.rank)
  bcast_S_S32 : S_.BroadcastsInDim S32 (![] : Fin 0 → Fin S32.rank)
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x32_0_1 : S1024x1.BroadcastsInDim S1024x32 (![0, 1] : Fin 2 → Fin S1024x32.rank)
  bcast_S1x32_S1024x32_0_1 : S1x32.BroadcastsInDim S1024x32 (![0, 1] : Fin 2 → Fin S1024x32.rank)
  shapeCasts_S32x32_S1024 : S32x32.ShapeCasts S1024
  bcast_S_S1024x32 : S_.BroadcastsInDim S1024x32 (![] : Fin 0 → Fin S1024x32.rank)
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S8x576x256_S1x576x256_0_0_0 : ∀ a, (![0, 0, 0] : Fin 3 → Nat) a + S1x576x256.size a ≤ S8x576x256.size a
  h_S1x576x256 : 0 < S1x576x256.numel
  shapeCasts_S1x576x256_S576x256 : S1x576x256.ShapeCasts S576x256
  reduces_S576x1024_S1024 : S576x1024.Reduces [0] S1024
  shapeCasts_S1024_S1x1024 : S1024.ShapeCasts S1x1024
  shapeCasts_S1x32_S32 : S1x32.ShapeCasts S32
  inb_S8x32_S1x32_0_0 : ∀ a, (![0, 0] : Fin 2 → Nat) a + S1x32.size a ≤ S8x32.size a
  h_S1x32 : 0 < S1x32.numel
  shapeCasts_S32_S1x32 : S32.ShapeCasts S1x32
  inb_S8x576x256_S1x576x256_1_0_0 : ∀ a, (![1, 0, 0] : Fin 3 → Nat) a + S1x576x256.size a ≤ S8x576x256.size a
  inb_S8x32_S1x32_1_0 : ∀ a, (![1, 0] : Fin 2 → Nat) a + S1x32.size a ≤ S8x32.size a
  inb_S8x576x256_S1x576x256_2_0_0 : ∀ a, (![2, 0, 0] : Fin 3 → Nat) a + S1x576x256.size a ≤ S8x576x256.size a
  inb_S8x32_S1x32_2_0 : ∀ a, (![2, 0] : Fin 2 → Nat) a + S1x32.size a ≤ S8x32.size a
  inb_S8x576x256_S1x576x256_3_0_0 : ∀ a, (![3, 0, 0] : Fin 3 → Nat) a + S1x576x256.size a ≤ S8x576x256.size a
  inb_S8x32_S1x32_3_0 : ∀ a, (![3, 0] : Fin 2 → Nat) a + S1x32.size a ≤ S8x32.size a
  inb_S8x576x256_S1x576x256_4_0_0 : ∀ a, (![4, 0, 0] : Fin 3 → Nat) a + S1x576x256.size a ≤ S8x576x256.size a
  inb_S8x32_S1x32_4_0 : ∀ a, (![4, 0] : Fin 2 → Nat) a + S1x32.size a ≤ S8x32.size a
  inb_S8x576x256_S1x576x256_5_0_0 : ∀ a, (![5, 0, 0] : Fin 3 → Nat) a + S1x576x256.size a ≤ S8x576x256.size a
  inb_S8x32_S1x32_5_0 : ∀ a, (![5, 0] : Fin 2 → Nat) a + S1x32.size a ≤ S8x32.size a
  inb_S8x576x256_S1x576x256_6_0_0 : ∀ a, (![6, 0, 0] : Fin 3 → Nat) a + S1x576x256.size a ≤ S8x576x256.size a
  inb_S8x32_S1x32_6_0 : ∀ a, (![6, 0] : Fin 2 → Nat) a + S1x32.size a ≤ S8x32.size a
  inb_S8x576x256_S1x576x256_7_0_0 : ∀ a, (![7, 0, 0] : Fin 3 → Nat) a + S1x576x256.size a ≤ S8x576x256.size a
  inb_S8x32_S1x32_7_0 : ∀ a, (![7, 0] : Fin 2 → Nat) a + S1x32.size a ≤ S8x32.size a
  bcast_S_S1 : S_.BroadcastsInDim S1 (![] : Fin 0 → Fin S1.rank)
  shapeCasts_S1_S_ : S1.ShapeCasts S_
  bcast_S_S32x32 : S_.BroadcastsInDim S32x32 (![] : Fin 0 → Fin S32x32.rank)
  reducesTo_S32x32_S_d0_1 : S32x32.ReducesTo [0, 1] S_
  dot_S576x256_S256x1024_S576x1024_1_0_0_1_n_n_wf : DotDims.WF S576x256 S256x1024 S576x1024 [1] [0] [0] [1] [] []
  dot_S1x1024_S1024x32_S1x32_1_0_0_1_n_n_wf : DotDims.WF S1x1024 S1024x32 S1x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x576x256.size a ≤ S32x576x256.size a
  hwx0_0 : ∀ i : grid0.Coords, EltTy.bits .bf16 = 32 ∨ (Rect.block (s := S32x576x256) S8x576x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .bf16 = 32 ∨ (Rect.block (s := S256x1024) S256x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x32.size a ≤ S1024x32.size a
  hwx0_2 : ∀ i : grid0.Coords, EltTy.bits .f32 = 32 ∨ (Rect.block (s := S1024x32) S1024x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x32.size a ≤ S32x32.size a
  hwx0_3 : ∀ i : grid0.Coords, EltTy.bits .f32 = 32 ∨ (Rect.block (s := S32x32) S8x32.size (cc0_transform_3 i) (hinb0_3 i)).WholeWords (EltTy.packing .f32)

variable [Facts₀]

def dot_S576x256_S256x1024_S576x1024_1_0_0_1_n_n : DotDims S576x256 S256x1024 S576x1024 where
  lhsContracting := [1]
  rhsContracting := [0]
  lhsNonContracting := [0]
  rhsNonContracting := [1]
  lhsBatch := []
  rhsBatch := []
  wf := dot_S576x256_S256x1024_S576x1024_1_0_0_1_n_n_wf
def dot_S1x1024_S1024x32_S1x32_1_0_0_1_n_n : DotDims S1x1024 S1024x32 S1x32 where
  lhsContracting := [1]
  rhsContracting := [0]
  lhsNonContracting := [0]
  rhsNonContracting := [1]
  lhsBatch := []
  rhsBatch := []
  wf := dot_S1x1024_S1024x32_S1x32_1_0_0_1_n_n_wf

abbrev win0_0 : Pipeline.Window sig grid0 :=
  Pipeline.Window.ofSpec (Memref.whole main_v10) S8x576x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v42) S1024x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v43) S8x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x576x256 : Shape := ⟨3, ![32, 576, 256]⟩
abbrev S32x32x256 : Shape := ⟨3, ![32, 32, 256]⟩
abbrev S1 : Shape := ⟨1, ![1]⟩
abbrev S32 : Shape := ⟨1, ![32]⟩
abbrev S_ : Shape := ⟨0, ![]⟩
abbrev S32x576 : Shape := ⟨2, ![32, 576]⟩
abbrev S32x576x1 : Shape := ⟨3, ![32, 576, 1]⟩
abbrev S32x32 : Shape := ⟨2, ![32, 32]⟩
abbrev S32x32x1 : Shape := ⟨3, ![32, 32, 1]⟩
abbrev S32x32x32x576 : Shape := ⟨4, ![32, 32, 32, 576]⟩
abbrev S32x32x576x32 : Shape := ⟨4, ![32, 32, 576, 32]⟩
abbrev S32x32x32 : Shape := ⟨3, ![32, 32, 32]⟩
abbrev S1x32 : Shape := ⟨2, ![1, 32]⟩
abbrev S32x1 : Shape := ⟨2, ![32, 1]⟩
abbrev S1x32x32 : Shape := ⟨3, ![1, 32, 32]⟩

abbrev nBuf : Space → Nat
  | .hbm => 103
  | .vmem => 0
  | .smem => 0
  | _ => 0

abbrev bufTy : (tb : Table) → Fin (tcTables nBuf tb) → BufTy
  | .hbm, ⟨0, _⟩ => ⟨S32x576x256, .f32⟩
  | .hbm, ⟨1, _⟩ => ⟨S32x32x256, .f32⟩
  | .hbm, ⟨2, _⟩ => ⟨S1, .f32⟩
  | .hbm, ⟨3, _⟩ => ⟨S1, .f32⟩
  | .hbm, ⟨4, _⟩ => ⟨S32, .i32⟩
  | .hbm, ⟨5, _⟩ => ⟨S32x576x256, .f32⟩
  | .hbm, ⟨6, _⟩ => ⟨S_, .f32⟩
  | .hbm, ⟨7, _⟩ => ⟨S32x576, .f32⟩
  | .hbm, ⟨8, _⟩ => ⟨S32x576x1, .f32⟩
  | .hbm, ⟨9, _⟩ => ⟨S32x576x1, .f32⟩
  | .hbm, ⟨10, _⟩ => ⟨S_, .f32⟩
  | .hbm, ⟨11, _⟩ => ⟨S32x576x1, .f32⟩
  | .hbm, ⟨12, _⟩ => ⟨S32x576x1, .f32⟩
  | .hbm, ⟨13, _⟩ => ⟨S32x576x256, .f32⟩
  | .hbm, ⟨14, _⟩ => ⟨S32x576x256, .f32⟩
  | .hbm, ⟨15, _⟩ => ⟨S32x32x256, .f32⟩
  | .hbm, ⟨16, _⟩ => ⟨S_, .f32⟩
  | .hbm, ⟨17, _⟩ => ⟨S32x32, .f32⟩
  | .hbm, ⟨18, _⟩ => ⟨S32x32x1, .f32⟩
  | .hbm, ⟨19, _⟩ => ⟨S32x32x1, .f32⟩
  | .hbm, ⟨20, _⟩ => ⟨S_, .f32⟩
  | .hbm, ⟨21, _⟩ => ⟨S32x32x1, .f32⟩
  | .hbm, ⟨22, _⟩ => ⟨S32x32x1, .f32⟩
  | .hbm, ⟨23, _⟩ => ⟨S32x32x256, .f32⟩
  | .hbm, ⟨24, _⟩ => ⟨S32x32x256, .f32⟩
  | .hbm, ⟨25, _⟩ => ⟨S32x32x32x576, .f32⟩
  | .hbm, ⟨26, _⟩ => ⟨S32x32x576x32, .f32⟩
  | .hbm, ⟨27, _⟩ => ⟨S_, .f32⟩
  | .hbm, ⟨28, _⟩ => ⟨S32x32x32, .f32⟩
  | .hbm, ⟨29, _⟩ => ⟨S32, .i32⟩
  | .hbm, ⟨30, _⟩ => ⟨S1x32, .i32⟩
  | .hbm, ⟨31, _⟩ => ⟨S32x1, .i32⟩
  | .hbm, ⟨32, _⟩ => ⟨S32x32, .i32⟩
  | .hbm, ⟨33, _⟩ => ⟨S32x32, .i32⟩
  | .hbm, ⟨34, _⟩ => ⟨S32x32, .i1⟩
  | .hbm, ⟨35, _⟩ => ⟨S32x32, .f32⟩
  | .hbm, ⟨36, _⟩ => ⟨S32, .f32⟩
  | .hbm, ⟨37, _⟩ => ⟨S1x32x32, .f32⟩
  | .hbm, ⟨38, _⟩ => ⟨S32x32x32, .f32⟩
  | .hbm, ⟨39, _⟩ => ⟨S32x32x32, .f32⟩
  | .hbm, ⟨40, _⟩ => ⟨S_, .f32⟩
  | .hbm, ⟨41, _⟩ => ⟨S32x32, .f32⟩
  | .hbm, ⟨42, _⟩ => ⟨S1x32, .f32⟩
  | .hbm, ⟨43, _⟩ => ⟨S32x32, .f32⟩
  | .hbm, ⟨44, _⟩ => ⟨S32x32, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S1, .f32⟩
  | .hbm, ⟨49, _⟩ => ⟨S1, .f32⟩
  | .hbm, ⟨50, _⟩ => ⟨S_, .f32⟩
  | .hbm, ⟨51, _⟩ => ⟨S1, .f32⟩
  | .hbm, ⟨52, _⟩ => ⟨S1, .f32⟩
  | .hbm, ⟨53, _⟩ => ⟨S1, .f32⟩
  | .hbm, ⟨54, _⟩ => ⟨S_, .f32⟩
  | .hbm, ⟨55, _⟩ => ⟨S32x32, .f32⟩
  | .hbm, ⟨56, _⟩ => ⟨S32x32, .f32⟩
  | .hbm, ⟨57, _⟩ => ⟨S_, .f32⟩
  | .hbm, ⟨58, _⟩ => ⟨S32x32, .f32⟩
  | .hbm, ⟨59, _⟩ => ⟨S32x32, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S32x32, .f32⟩
  | .hbm, ⟨64, _⟩ => ⟨S32x32, .f32⟩
  | .hbm, ⟨65, _⟩ => ⟨S_, .f32⟩
  | .hbm, ⟨66, _⟩ => ⟨S32x32, .f32⟩
  | .hbm, ⟨67, _⟩ => ⟨S32x32, .f32⟩
  | .hbm, ⟨68, _⟩ => ⟨S32x32, .i32⟩
  | .hbm, ⟨69, _⟩ => ⟨S32x32, .i32⟩
  | .hbm, ⟨70, _⟩ => ⟨S_, .i32⟩
  | .hbm, ⟨71, _⟩ => ⟨S32x32, .i32⟩
  | .hbm, ⟨72, _⟩ => ⟨S32x32, .i32⟩
  | .hbm, ⟨73, _⟩ => ⟨S32x32, .i1⟩
  | .hbm, ⟨74, _⟩ => ⟨S32x32, .f32⟩
  | .hbm, ⟨75, _⟩ => ⟨S_, .f32⟩
  | .hbm, ⟨76, _⟩ => ⟨S32x32, .f32⟩
  | .hbm, ⟨77, _⟩ => ⟨S32x32, .f32⟩
  | .hbm, ⟨78, _⟩ => ⟨S_, .f32⟩
  | .hbm, ⟨79, _⟩ => ⟨S32x32, .f32⟩
  | .hbm, ⟨80, _⟩ => ⟨S32x32, .f32⟩
  | .hbm, ⟨81, _⟩ => ⟨S32x32, .f32⟩
  | .hbm, ⟨82, _⟩ => ⟨S32x32, .f32⟩
  | .hbm, ⟨83, _⟩ => ⟨S_, .f32⟩
  | .hbm, ⟨84, _⟩ => ⟨S32x32, .f32⟩
  | .hbm, ⟨85, _⟩ => ⟨S32x32, .f32⟩
  | .hbm, ⟨86, _⟩ => ⟨S32x32, .f32⟩
  | .hbm, ⟨87, _⟩ => ⟨S32x32, .f32⟩
  | .hbm, ⟨88, _⟩ => ⟨S32x32, .i1⟩
  | .hbm, ⟨89, _⟩ => ⟨S32x32, .f32⟩
  | .hbm, ⟨90, _⟩ => ⟨S32x32, .f32⟩
  | .hbm, ⟨91, _⟩ => ⟨S32x32, .f32⟩
  | .hbm, ⟨92, _⟩ => ⟨S32x32, .f32⟩
  | .hbm, ⟨93, _⟩ => ⟨S32x32, .f32⟩
  | .hbm, ⟨94, _⟩ => ⟨S32x32, .f32⟩
  | .hbm, ⟨95, _⟩ => ⟨S32x32, .f32⟩
  | .hbm, ⟨96, _⟩ => ⟨S32x32, .f32⟩
  | .hbm, ⟨97, _⟩ => ⟨S32x32, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | _, _ => ⟨S32x576x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call1_v0 : Ref sig .tc := ⟨.hbm, 15, rfl⟩
abbrev main_call1_cst : Ref sig .tc := ⟨.hbm, 16, rfl⟩
abbrev main_call1_v1 : Ref sig .tc := ⟨.hbm, 17, rfl⟩
abbrev main_call1_v2 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_cst_4 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_5 : Ref sig .tc := ⟨.hbm, 60, rfl⟩
abbrev main_cst_6 : Ref sig .tc := ⟨.hbm, 61, rfl⟩
abbrev main_call3_v0 : Ref sig .tc := ⟨.hbm, 62, rfl⟩
abbrev main_call3_v1 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_c : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_7 : Ref sig .tc := ⟨.hbm, 75, rfl⟩
abbrev main_v43 : Ref sig .tc := ⟨.hbm, 76, rfl⟩
abbrev main_v44 : Ref sig .tc := ⟨.hbm, 77, rfl⟩
abbrev main_cst_8 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_call4_v0 : Ref sig .tc := ⟨.hbm, 82, rfl⟩
abbrev main_call4_call0_cst : Ref sig .tc := ⟨.hbm, 83, rfl⟩
abbrev main_call4_call0_v0 : Ref sig .tc := ⟨.hbm, 84, rfl⟩
abbrev main_call4_call0_v1 : Ref sig .tc := ⟨.hbm, 85, rfl⟩
abbrev main_call4_call0_v2 : Ref sig .tc := ⟨.hbm, 86, rfl⟩
abbrev main_call4_call0_v3 : Ref sig .tc := ⟨.hbm, 87, rfl⟩
abbrev main_call4_call0_v4 : Ref sig .tc := ⟨.hbm, 88, rfl⟩
abbrev main_call4_call0_v5 : Ref sig .tc := ⟨.hbm, 89, rfl⟩
abbrev main_call4_call0_v6 : Ref sig .tc := ⟨.hbm, 90, rfl⟩
abbrev main_call4_call0_v7 : Ref sig .tc := ⟨.hbm, 91, rfl⟩
abbrev main_call4_call0_v8 : Ref sig .tc := ⟨.hbm, 92, rfl⟩
abbrev main_call4_call0_v9 : Ref sig .tc := ⟨.hbm, 93, rfl⟩
abbrev main_call4_call0_v10 : Ref sig .tc := ⟨.hbm, 94, rfl⟩
abbrev main_call4_call0_v11 : Ref sig .tc := ⟨.hbm, 95, rfl⟩
abbrev main_call4_v1 : Ref sig .tc := ⟨.hbm, 96, rfl⟩
abbrev main_v48 : Ref sig .tc := ⟨.hbm, 97, rfl⟩
abbrev main_cst_9 : Ref sig .tc := ⟨.hbm, 98, rfl⟩
abbrev main_v49 : Ref sig .tc := ⟨.hbm, 99, rfl⟩
abbrev main_cst_10 : Ref sig .tc := ⟨.hbm, 100, rfl⟩
abbrev main_v50 : Ref sig .tc := ⟨.hbm, 101, rfl⟩
abbrev main_v51 : Ref sig .tc := ⟨.hbm, 102, rfl⟩

abbrev nD : Nat := 1
abbrev τ : Topo := Topo.v7x

variable {F : FTy → Type} [FloatOps F]

class Facts₀ : Prop where
  reducesTo_S32x576x256_S32x576_d2 : S32x576x256.ReducesTo [2] S32x576
  h_S_ : 0 < S_.numel
  bcast_S32x576_S32x576x1_0_1 : S32x576.BroadcastsInDim S32x576x1 (![0, 1] : Fin 2 → Fin S32x576x1.rank)
  bcast_S_S32x576x1 : S_.BroadcastsInDim S32x576x1 (![] : Fin 0 → Fin S32x576x1.rank)
  bcast_S32x576x1_S32x576x256_0_1_2 : S32x576x1.BroadcastsInDim S32x576x256 (![0, 1, 2] : Fin 3 → Fin S32x576x256.rank)
  reducesTo_S32x32x256_S32x32_d2 : S32x32x256.ReducesTo [2] S32x32
  bcast_S32x32_S32x32x1_0_1 : S32x32.BroadcastsInDim S32x32x1 (![0, 1] : Fin 2 → Fin S32x32x1.rank)
  bcast_S_S32x32x1 : S_.BroadcastsInDim S32x32x1 (![] : Fin 0 → Fin S32x32x1.rank)
  bcast_S32x32x1_S32x32x256_0_1_2 : S32x32x1.BroadcastsInDim S32x32x256 (![0, 1, 2] : Fin 3 → Fin S32x32x256.rank)
  transposes_S32x32x32x576_S32x32x576x32_2_0_3_1 : S32x32x32x576.Transposes [2, 0, 3, 1] S32x32x576x32
  reducesTo_S32x32x576x32_S32x32x32_d2 : S32x32x576x32.ReducesTo [2] S32x32x32
  bcast_S32_S1x32_1 : S32.BroadcastsInDim S1x32 (![1] : Fin 1 → Fin S1x32.rank)
  bcast_S32_S32x1_0 : S32.BroadcastsInDim S32x1 (![0] : Fin 1 → Fin S32x1.rank)
  bcast_S1x32_S32x32_0_1 : S1x32.BroadcastsInDim S32x32 (![0, 1] : Fin 2 → Fin S32x32.rank)
  bcast_S32x1_S32x32_0_1 : S32x1.BroadcastsInDim S32x32 (![0, 1] : Fin 2 → Fin S32x32.rank)
  bcast_S32x32_S1x32x32_1_2 : S32x32.BroadcastsInDim S1x32x32 (![1, 2] : Fin 2 → Fin S1x32x32.rank)
  bcast_S1x32x32_S32x32x32_0_1_2 : S1x32x32.BroadcastsInDim S32x32x32 (![0, 1, 2] : Fin 3 → Fin S32x32x32.rank)
  reducesTo_S32x32x32_S32x32_d2 : S32x32x32.ReducesTo [2] S32x32
  bcast_S_S1 : S_.BroadcastsInDim S1 (![] : Fin 0 → Fin S1.rank)
  shapeCasts_S1_S_ : S1.ShapeCasts S_
  bcast_S_S32x32 : S_.BroadcastsInDim S32x32 (![] : Fin 0 → Fin S32x32.rank)
  reducesTo_S32x32_S_d0_1 : S32x32.ReducesTo [0, 1] S_
  dot_S32x32x256_S32x576x256_S32x32x32x576_2_2_01_01_n_n_wf : DotDims.WF S32x32x256 S32x576x256 S32x32x32x576 [2] [2] [0, 1] [0, 1] [] []

variable [Facts₀]

def dot_S32x32x256_S32x576x256_S32x32x32x576_2_2_01_01_n_n : DotDims S32x32x256 S32x576x256 S32x32x32x576 where
  lhsContracting := [2]
  rhsContracting := [2]
  lhsNonContracting := [0, 1]
  rhsNonContracting := [0, 1]
  lhsBatch := []
  rhsBatch := []
  wf := dot_S32x32x256_S32x576x256_S32x32x32x576_2_2_01_01_n_n_wf

class Facts : Prop extends Facts₀ where

variable [Facts]
-- ==== Proof.RefRun.lean ====
/- The reference program's @main as ONE list of its 98 host operations — the six outlined functions' operations written at
   their calls over each call's own buffers, the log-sigmoid's softplus within it — and its run read back: every weakly
   fair execution terminates with the result buffer at the operations' composed term of the arguments' launch contents,
   the arguments unchanged. The composed term is stated in pieces: the two normalizations, the similarity matrix,
   and the loss from it (its logits, its sign matrix and its softplus named on their own). -/
import proofs.«137095_j58832462021082_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The composed terms -/

/-- The image tokens divided by their lengths: each row of 256 by the larger of the root of its sum of squares and 1e-12. -/
def imgN (a0 : FVec F S32x576x256 .f32) : FVec F S32x576x256 .f32 :=
  Host.divf
    a0
    (broadcastInDim S32x576x256 ![0, 1, 2] bcast_S32x576x1_S32x576x256_0_1_2
       (maximumf
          (Host.sqrt
             (broadcastInDim S32x576x1 ![0, 1] bcast_S32x576_S32x576x1_0_1
                (Host.reduceAdd (mulf a0 a0) (constant S_ .f32 0x00000000#32) reducesTo_S32x576x256_S32x576_d2 h_S_)))
          (broadcastInDim S32x576x1 ![] bcast_S_S32x576x1 (constant S_ .f32 0x2B8CBCCC#32))))

/-- The concept tokens divided by their lengths, likewise. -/
def conN (a1 : FVec F S32x32x256 .f32) : FVec F S32x32x256 .f32 :=
  Host.divf
    a1
    (broadcastInDim S32x32x256 ![0, 1, 2] bcast_S32x32x1_S32x32x256_0_1_2
       (maximumf
          (Host.sqrt
             (broadcastInDim S32x32x1 ![0, 1] bcast_S32x32_S32x32x1_0_1
                (Host.reduceAdd (mulf a1 a1) (constant S_ .f32 0x00000000#32) reducesTo_S32x32x256_S32x32_d2 h_S_)))
          (broadcastInDim S32x32x1 ![] bcast_S_S32x32x1 (constant S_ .f32 0x2B8CBCCC#32))))

/-- The similarity matrix: the contraction over the 256 features, transposed to (image, concept set, patch, token), its maximum over
    the 576 patches, masked to the tokens below each set's count, summed over the tokens and divided by the count. -/
def sim (img : FVec F S32x576x256 .f32) (con : FVec F S32x32x256 .f32) (a4 : IVec S32 32) : FVec F S32x32 .f32 :=
  Host.divf
    (Host.reduceAdd
       (mulf
          (Host.reduce FloatOps.maximumf
             (transpose S32x32x576x32 [2, 0, 3, 1]
                (Host.dotGeneral dot_S32x32x256_S32x576x256_S32x32x32x576_2_2_01_01_n_n none con img) transposes_S32x32x32x576_S32x32x576x32_2_0_3_1)
             (constant S_ .f32 0xFF800000#32) reducesTo_S32x32x576x32_S32x32x32_d2 h_S_)
          (broadcastInDim S32x32x32 ![0, 1, 2] bcast_S1x32x32_S32x32x32_0_1_2
             (broadcastInDim S1x32x32 ![1, 2] bcast_S32x32_S1x32x32_1_2
                (uitofp .f32
                   (cmpi .slt
                      (broadcastInDim S32x32 ![0, 1] bcast_S1x32_S32x32_0_1
                         (broadcastInDim S1x32 ![1] bcast_S32_S1x32_1 (iotaInDim S32 32 0)))
                      (broadcastInDim S32x32 ![0, 1] bcast_S32x1_S32x32_0_1
                         (broadcastInDim S32x1 ![0] bcast_S32_S32x1_0 a4)))))))
       (constant S_ .f32 0x00000000#32) reducesTo_S32x32x32_S32x32_d2 h_S_)
    (broadcastInDim S32x32 ![0, 1] bcast_S1x32_S32x32_0_1
       (broadcastInDim S1x32 ![1] bcast_S32_S1x32_1 (sitofp .f32 a4)))

/-- The logits: the similarities times the exponential of the scale clipped to [-10, 10], plus the bias, clipped to [-50, 50]. -/
def logits (a2 a3 : FVec F S1 .f32) (s : FVec F S32x32 .f32) : FVec F S32x32 .f32 :=
  minimumf
    (broadcastInDim S32x32 ![] bcast_S_S32x32 (constant S_ .f32 0x42480000#32))
    (maximumf
       (broadcastInDim S32x32 ![] bcast_S_S32x32 (constant S_ .f32 0xC2480000#32))
       (addf
          (mulf
             (broadcastInDim S32x32 ![] bcast_S_S32x32
                (shapeCast S_
                   (Host.exp
                      (minimumf
                         (broadcastInDim S1 ![] bcast_S_S1 (constant S_ .f32 0x41200000#32))
                         (maximumf (broadcastInDim S1 ![] bcast_S_S1 (constant S_ .f32 0xC1200000#32)) a2))) shapeCasts_S1_S_))
             s)
          (broadcastInDim S32x32 ![] bcast_S_S32x32 (shapeCast S_ a3 shapeCasts_S1_S_))))

/-- The sign matrix: +1 on the diagonal, -1 off it (twice the identity's indicator, minus one). -/
def signs : FVec F S32x32 .f32 :=
  subf
    (mulf
       (broadcastInDim S32x32 ![] bcast_S_S32x32 (constant S_ .f32 0x40000000#32))
       (uitofp .f32
          (cmpi .eq
             (addi (iotaInDim S32x32 32 0) (broadcastInDim S32x32 ![] bcast_S_S32x32 (constantI S_ 32 0#32)))
             (iotaInDim S32x32 32 1))))
    (broadcastInDim S32x32 ![] bcast_S_S32x32 (constant S_ .f32 0x3F800000#32))

/-- The softplus of the outlined function: where `x - 0` is unordered with itself `x + 0`, elsewhere `max x 0 + log1p (exp (-|x - 0|))`. -/
def softplus (x : FVec F S32x32 .f32) : FVec F S32x32 .f32 :=
  select
    (cmpf .une
       (subf x (broadcastInDim S32x32 ![] bcast_S_S32x32 (constant S_ .f32 0x00000000#32)))
       (subf x (broadcastInDim S32x32 ![] bcast_S_S32x32 (constant S_ .f32 0x00000000#32))))
    (addf x (broadcastInDim S32x32 ![] bcast_S_S32x32 (constant S_ .f32 0x00000000#32)))
    (addf
       (maximumf x (broadcastInDim S32x32 ![] bcast_S_S32x32 (constant S_ .f32 0x00000000#32)))
       (Host.log1p
          (Host.exp
             (Host.negf
                (Host.absf (subf x (broadcastInDim S32x32 ![] bcast_S_S32x32 (constant S_ .f32 0x00000000#32))))))))

/-- The loss: minus the mean over the 1024 entries of `-softplus (-(signs * logits))`, the log-sigmoid of the signed logits. -/
def tail (a2 a3 : FVec F S1 .f32) (s : FVec F S32x32 .f32) : FVec F S_ .f32 :=
  Host.negf
    (Host.divf
       (Host.reduceAdd
          (Host.negf (softplus (Host.negf (mulf signs (logits a2 a3 s)))))
          (constant S_ .f32 0x00000000#32) reducesTo_S32x32_S_d0_1 h_S_)
       (constant S_ .f32 0x44800000#32))

/-! ## The operations -/

/-- @main's 98 operations, in order, the calls unfolded: the two norms five each into their calls' buffers, the two clips
    six each, the log-sigmoid sixteen (its negation, the softplus's fourteen, the closing negation). -/
abbrev ops : List (HloOp τ sig (Elt F)) :=
  [ TRef.binary (.of main_arg0) (.of main_arg0) main_call0.v0 mulf,
    TRef.nullary main_call0.cst (constant S_ .f32 0x00000000#32),
    TRef.binary main_call0.v0 main_call0.cst main_call0.v1 (fun x v => Host.reduceAdd x v reducesTo_S32x576x256_S32x576_d2 h_S_),
    TRef.unary main_call0.v1 main_call0.v2 (broadcastInDim S32x576x1 ![0, 1] bcast_S32x576_S32x576x1_0_1),
    TRef.unary main_call0.v2 main_call0.v3 Host.sqrt,
    nullary main_cst (constant S_ .f32 0x2B8CBCCC#32),
    unary main_cst main_v1 (broadcastInDim S32x576x1 ![] bcast_S_S32x576x1 : (⟨S_, .f32⟩ : BufTy).Contents (Elt F) → (⟨S32x576x1, .f32⟩ : BufTy).Contents (Elt F)),
    binary main_v0 main_v1 main_v2 (maximumf : (⟨S32x576x1, .f32⟩ : BufTy).Contents (Elt F) → (⟨S32x576x1, .f32⟩ : BufTy).Contents (Elt F) → (⟨S32x576x1, .f32⟩ : BufTy).Contents (Elt F)),
    unary main_v2 main_v3 (broadcastInDim S32x576x256 ![0, 1, 2] bcast_S32x576x1_S32x576x256_0_1_2 : (⟨S32x576x1, .f32⟩ : BufTy).Contents (Elt F) → (⟨S32x576x256, .f32⟩ : BufTy).Contents (Elt F)),
    binary main_arg0 main_v3 main_v4 (Host.divf : (⟨S32x576x256, .f32⟩ : BufTy).Contents (Elt F) → (⟨S32x576x256, .f32⟩ : BufTy).Contents (Elt F) → (⟨S32x576x256, .f32⟩ : BufTy).Contents (Elt F)),
    TRef.binary (.of main_arg1) (.of main_arg1) main_call1.v0 mulf,
    TRef.nullary main_call1.cst (constant S_ .f32 0x00000000#32),
    TRef.binary main_call1.v0 main_call1.cst main_call1.v1 (fun x v => Host.reduceAdd x v reducesTo_S32x32x256_S32x32_d2 h_S_),
    TRef.unary main_call1.v1 main_call1.v2 (broadcastInDim S32x32x1 ![0, 1] bcast_S32x32_S32x32x1_0_1),
    TRef.unary main_call1.v2 main_call1.v3 Host.sqrt,
    nullary main_cst_0 (constant S_ .f32 0x2B8CBCCC#32),
    unary main_cst_0 main_v6 (broadcastInDim S32x32x1 ![] bcast_S_S32x32x1 : (⟨S_, .f32⟩ : BufTy).Contents (Elt F) → (⟨S32x32x1, .f32⟩ : BufTy).Contents (Elt F)),
    binary main_v5 main_v6 main_v7 (maximumf : (⟨S32x32x1, .f32⟩ : BufTy).Contents (Elt F) → (⟨S32x32x1, .f32⟩ : BufTy).Contents (Elt F) → (⟨S32x32x1, .f32⟩ : BufTy).Contents (Elt F)),
    unary main_v7 main_v8 (broadcastInDim S32x32x256 ![0, 1, 2] bcast_S32x32x1_S32x32x256_0_1_2 : (⟨S32x32x1, .f32⟩ : BufTy).Contents (Elt F) → (⟨S32x32x256, .f32⟩ : BufTy).Contents (Elt F)),
    binary main_arg1 main_v8 main_v9 (Host.divf : (⟨S32x32x256, .f32⟩ : BufTy).Contents (Elt F) → (⟨S32x32x256, .f32⟩ : BufTy).Contents (Elt F) → (⟨S32x32x256, .f32⟩ : BufTy).Contents (Elt F)),
    binary main_v9 main_v4 main_v10 ((fun l r => Host.dotGeneral dot_S32x32x256_S32x576x256_S32x32x32x576_2_2_01_01_n_n none l r) : (⟨S32x32x256, .f32⟩ : BufTy).Contents (Elt F) → (⟨S32x576x256, .f32⟩ : BufTy).Contents (Elt F) → (⟨S32x32x32x576, .f32⟩ : BufTy).Contents (Elt F)),
    unary main_v10 main_v11 ((transpose S32x32x576x32 [2, 0, 3, 1] · transposes_S32x32x32x576_S32x32x576x32_2_0_3_1) : (⟨S32x32x32x576, .f32⟩ : BufTy).Contents (Elt F) → (⟨S32x32x576x32, .f32⟩ : BufTy).Contents (Elt F)),
    nullary main_cst_1 (constant S_ .f32 0xFF800000#32),
    binary main_v11 main_cst_1 main_v12 ((fun x v => Host.reduce FloatOps.maximumf x v reducesTo_S32x32x576x32_S32x32x32_d2 h_S_) : (⟨S32x32x576x32, .f32⟩ : BufTy).Contents (Elt F) → (⟨S_, .f32⟩ : BufTy).Contents (Elt F) → (⟨S32x32x32, .f32⟩ : BufTy).Contents (Elt F)),
    nullary main_v13 (iotaInDim S32 32 0),
    unary main_v13 main_v14 (broadcastInDim S1x32 ![1] bcast_S32_S1x32_1 : (⟨S32, .i32⟩ : BufTy).Contents (Elt F) → (⟨S1x32, .i32⟩ : BufTy).Contents (Elt F)),
    unary main_arg4 main_v15 (broadcastInDim S32x1 ![0] bcast_S32_S32x1_0 : (⟨S32, .i32⟩ : BufTy).Contents (Elt F) → (⟨S32x1, .i32⟩ : BufTy).Contents (Elt F)),
    unary main_v14 main_v16 (broadcastInDim S32x32 ![0, 1] bcast_S1x32_S32x32_0_1 : (⟨S1x32, .i32⟩ : BufTy).Contents (Elt F) → (⟨S32x32, .i32⟩ : BufTy).Contents (Elt F)),
    unary main_v15 main_v17 (broadcastInDim S32x32 ![0, 1] bcast_S32x1_S32x32_0_1 : (⟨S32x1, .i32⟩ : BufTy).Contents (Elt F) → (⟨S32x32, .i32⟩ : BufTy).Contents (Elt F)),
    binary main_v16 main_v17 main_v18 (cmpi .slt : (⟨S32x32, .i32⟩ : BufTy).Contents (Elt F) → (⟨S32x32, .i32⟩ : BufTy).Contents (Elt F) → (⟨S32x32, .i1⟩ : BufTy).Contents (Elt F)),
    unary main_v18 main_v19 (uitofp .f32 : (⟨S32x32, .i1⟩ : BufTy).Contents (Elt F) → (⟨S32x32, .f32⟩ : BufTy).Contents (Elt F)),
    unary main_arg4 main_v20 (sitofp .f32 : (⟨S32, .i32⟩ : BufTy).Contents (Elt F) → (⟨S32, .f32⟩ : BufTy).Contents (Elt F)),
    unary main_v19 main_v21 (broadcastInDim S1x32x32 ![1, 2] bcast_S32x32_S1x32x32_1_2 : (⟨S32x32, .f32⟩ : BufTy).Contents (Elt F) → (⟨S1x32x32, .f32⟩ : BufTy).Contents (Elt F)),
    unary main_v21 main_v22 (broadcastInDim S32x32x32 ![0, 1, 2] bcast_S1x32x32_S32x32x32_0_1_2 : (⟨S1x32x32, .f32⟩ : BufTy).Contents (Elt F) → (⟨S32x32x32, .f32⟩ : BufTy).Contents (Elt F)),
    binary main_v12 main_v22 main_v23 (mulf : (⟨S32x32x32, .f32⟩ : BufTy).Contents (Elt F) → (⟨S32x32x32, .f32⟩ : BufTy).Contents (Elt F) → (⟨S32x32x32, .f32⟩ : BufTy).Contents (Elt F)),
    nullary main_cst_2 (constant S_ .f32 0x00000000#32),
    binary main_v23 main_cst_2 main_v24 ((fun x v => Host.reduceAdd x v reducesTo_S32x32x32_S32x32_d2 h_S_) : (⟨S32x32x32, .f32⟩ : BufTy).Contents (Elt F) → (⟨S_, .f32⟩ : BufTy).Contents (Elt F) → (⟨S32x32, .f32⟩ : BufTy).Contents (Elt F)),
    unary main_v20 main_v25 (broadcastInDim S1x32 ![1] bcast_S32_S1x32_1 : (⟨S32, .f32⟩ : BufTy).Contents (Elt F) → (⟨S1x32, .f32⟩ : BufTy).Contents (Elt F)),
    unary main_v25 main_v26 (broadcastInDim S32x32 ![0, 1] bcast_S1x32_S32x32_0_1 : (⟨S1x32, .f32⟩ : BufTy).Contents (Elt F) → (⟨S32x32, .f32⟩ : BufTy).Contents (Elt F)),
    binary main_v24 main_v26 main_v27 (Host.divf : (⟨S32x32, .f32⟩ : BufTy).Contents (Elt F) → (⟨S32x32, .f32⟩ : BufTy).Contents (Elt F) → (⟨S32x32, .f32⟩ : BufTy).Contents (Elt F)),
    nullary main_cst_3 (constant S_ .f32 0xC1200000#32),
    nullary main_cst_4 (constant S_ .f32 0x41200000#32),
    TRef.unary (.of main_cst_3) main_call2.v0 id,
    TRef.unary main_call2.v0 main_call2.v1 (broadcastInDim S1 ![] bcast_S_S1),
    TRef.binary main_call2.v1 (.of main_arg2) main_call2.v2 maximumf,
    TRef.unary (.of main_cst_4) main_call2.v3 id,
    TRef.unary main_call2.v3 main_call2.v4 (broadcastInDim S1 ![] bcast_S_S1),
    TRef.binary main_call2.v4 main_call2.v2 main_call2.v5 minimumf,
    unary main_v28 main_v29 (Host.exp : (⟨S1, .f32⟩ : BufTy).Contents (Elt F) → (⟨S1, .f32⟩ : BufTy).Contents (Elt F)),
    reshape main_v29 main_v30 rfl shapeCasts_S1_S_,
    unary main_v30 main_v31 (broadcastInDim S32x32 ![] bcast_S_S32x32 : (⟨S_, .f32⟩ : BufTy).Contents (Elt F) → (⟨S32x32, .f32⟩ : BufTy).Contents (Elt F)),
    binary main_v31 main_v27 main_v32 (mulf : (⟨S32x32, .f32⟩ : BufTy).Contents (Elt F) → (⟨S32x32, .f32⟩ : BufTy).Contents (Elt F) → (⟨S32x32, .f32⟩ : BufTy).Contents (Elt F)),
    reshape main_arg3 main_v33 rfl shapeCasts_S1_S_,
    unary main_v33 main_v34 (broadcastInDim S32x32 ![] bcast_S_S32x32 : (⟨S_, .f32⟩ : BufTy).Contents (Elt F) → (⟨S32x32, .f32⟩ : BufTy).Contents (Elt F)),
    binary main_v32 main_v34 main_v35 (addf : (⟨S32x32, .f32⟩ : BufTy).Contents (Elt F) → (⟨S32x32, .f32⟩ : BufTy).Contents (Elt F) → (⟨S32x32, .f32⟩ : BufTy).Contents (Elt F)),
    nullary main_cst_5 (constant S_ .f32 0xC2480000#32),
    nullary main_cst_6 (constant S_ .f32 0x42480000#32),
    TRef.unary (.of main_cst_5) main_call3.v0 id,
    TRef.unary main_call3.v0 main_call3.v1 (broadcastInDim S32x32 ![] bcast_S_S32x32),
    TRef.binary main_call3.v1 (.of main_v35) main_call3.v2 maximumf,
    TRef.unary (.of main_cst_6) main_call3.v3 id,
    TRef.unary main_call3.v3 main_call3.v4 (broadcastInDim S32x32 ![] bcast_S_S32x32),
    TRef.binary main_call3.v4 main_call3.v2 main_call3.v5 minimumf,
    nullary main_v37 (iotaInDim S32x32 32 0),
    nullary main_v38 (iotaInDim S32x32 32 1),
    nullary main_c (constantI S_ 32 0#32),
    unary main_c main_v39 (broadcastInDim S32x32 ![] bcast_S_S32x32 : (⟨S_, .i32⟩ : BufTy).Contents (Elt F) → (⟨S32x32, .i32⟩ : BufTy).Contents (Elt F)),
    binary main_v37 main_v39 main_v40 (addi : (⟨S32x32, .i32⟩ : BufTy).Contents (Elt F) → (⟨S32x32, .i32⟩ : BufTy).Contents (Elt F) → (⟨S32x32, .i32⟩ : BufTy).Contents (Elt F)),
    binary main_v40 main_v38 main_v41 (cmpi .eq : (⟨S32x32, .i32⟩ : BufTy).Contents (Elt F) → (⟨S32x32, .i32⟩ : BufTy).Contents (Elt F) → (⟨S32x32, .i1⟩ : BufTy).Contents (Elt F)),
    unary main_v41 main_v42 (uitofp .f32 : (⟨S32x32, .i1⟩ : BufTy).Contents (Elt F) → (⟨S32x32, .f32⟩ : BufTy).Contents (Elt F)),
    nullary main_cst_7 (constant S_ .f32 0x40000000#32),
    unary main_cst_7 main_v43 (broadcastInDim S32x32 ![] bcast_S_S32x32 : (⟨S_, .f32⟩ : BufTy).Contents (Elt F) → (⟨S32x32, .f32⟩ : BufTy).Contents (Elt F)),
    binary main_v43 main_v42 main_v44 (mulf : (⟨S32x32, .f32⟩ : BufTy).Contents (Elt F) → (⟨S32x32, .f32⟩ : BufTy).Contents (Elt F) → (⟨S32x32, .f32⟩ : BufTy).Contents (Elt F)),
    nullary main_cst_8 (constant S_ .f32 0x3F800000#32),
    unary main_cst_8 main_v45 (broadcastInDim S32x32 ![] bcast_S_S32x32 : (⟨S_, .f32⟩ : BufTy).Contents (Elt F) → (⟨S32x32, .f32⟩ : BufTy).Contents (Elt F)),
    binary main_v44 main_v45 main_v46 (subf : (⟨S32x32, .f32⟩ : BufTy).Contents (Elt F) → (⟨S32x32, .f32⟩ : BufTy).Contents (Elt F) → (⟨S32x32, .f32⟩ : BufTy).Contents (Elt F)),
    binary main_v46 main_v36 main_v47 (mulf : (⟨S32x32, .f32⟩ : BufTy).Contents (Elt F) → (⟨S32x32, .f32⟩ : BufTy).Contents (Elt F) → (⟨S32x32, .f32⟩ : BufTy).Contents (Elt F)),
    TRef.unary (.of main_v47) main_call4.v0 Host.negf,
    TRef.nullary main_call4.call0.cst (constant S_ .f32 0x00000000#32),
    TRef.unary main_call4.call0.cst main_call4.call0.v0 (broadcastInDim S32x32 ![] bcast_S_S32x32),
    TRef.binary main_call4.v0 main_call4.call0.v0 main_call4.call0.v1 maximumf,
    TRef.unary main_call4.call0.cst main_call4.call0.v2 (broadcastInDim S32x32 ![] bcast_S_S32x32),
    TRef.binary main_call4.v0 main_call4.call0.v2 main_call4.call0.v3 subf,
    TRef.binary main_call4.call0.v3 main_call4.call0.v3 main_call4.call0.v4 (cmpf .une),
    TRef.unary main_call4.call0.cst main_call4.call0.v5 (broadcastInDim S32x32 ![] bcast_S_S32x32),
    TRef.binary main_call4.v0 main_call4.call0.v5 main_call4.call0.v6 addf,
    TRef.unary main_call4.call0.v3 main_call4.call0.v7 Host.absf,
    TRef.unary main_call4.call0.v7 main_call4.call0.v8 Host.negf,
    TRef.unary main_call4.call0.v8 main_call4.call0.v9 Host.exp,
    TRef.unary main_call4.call0.v9 main_call4.call0.v10 Host.log1p,
    TRef.binary main_call4.call0.v1 main_call4.call0.v10 main_call4.call0.v11 addf,
    TRef.ternary main_call4.call0.v4 main_call4.call0.v6 main_call4.call0.v11 main_call4.call0.v12 select,
    TRef.unary main_call4.call0.v12 main_call4.v2 Host.negf,
    nullary main_cst_9 (constant S_ .f32 0x00000000#32),
    binary main_v48 main_cst_9 main_v49 ((fun x v => Host.reduceAdd x v reducesTo_S32x32_S_d0_1 h_S_) : (⟨S32x32, .f32⟩ : BufTy).Contents (Elt F) → (⟨S_, .f32⟩ : BufTy).Contents (Elt F) → (⟨S_, .f32⟩ : BufTy).Contents (Elt F)),
    nullary main_cst_10 (constant S_ .f32 0x44800000#32),
    binary main_v49 main_cst_10 main_v50 (Host.divf : (⟨S_, .f32⟩ : BufTy).Contents (Elt F) → (⟨S_, .f32⟩ : BufTy).Contents (Elt F) → (⟨S_, .f32⟩ : BufTy).Contents (Elt F)),
    unary main_v50 main_v51 (Host.negf : (⟨S_, .f32⟩ : BufTy).Contents (Elt F) → (⟨S_, .f32⟩ : BufTy).Contents (Elt F)) ]

-- ninety-eight binds re-associated: the rewrite under the chain recurses once per statement
set_option maxRecDepth 4096 in
set_option maxHeartbeats 4000000 in
/-- @main is that straight line: the windows and the functions' definitions unfolded at their calls and the records at
    their fields, both sides are one chain of steps once sequencing is reassociated. -/
theorem main_eq (c : Dev nD) : main (F := F) c = seq ops := by
  simp only [main, main_part0, main_part1, fn_norm.body, fn_norm_0.body, fn_clip.body, fn_clip_1.body, fn_log_sigmoid.body,
    fn_softplus.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., binary_bufs_sub .., unary_bufs_sub .., unary_bufs_sub .., nullary_bufs_sub ..,
    unary_bufs_sub .., binary_bufs_sub .., unary_bufs_sub .., binary_bufs_sub .., binary_bufs_sub .., nullary_bufs_sub ..,
    binary_bufs_sub .., unary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., unary_bufs_sub .., unary_bufs_sub .., unary_bufs_sub .., unary_bufs_sub .., binary_bufs_sub ..,
    unary_bufs_sub .., unary_bufs_sub .., unary_bufs_sub .., unary_bufs_sub .., binary_bufs_sub .., nullary_bufs_sub ..,
    binary_bufs_sub .., unary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    unary_bufs_sub .., reshape_bufs_sub .., unary_bufs_sub .., binary_bufs_sub .., reshape_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., nullary_bufs_sub .., nullary_bufs_sub .., nullary_bufs_sub ..,
    unary_bufs_sub .., binary_bufs_sub .., binary_bufs_sub .., unary_bufs_sub .., nullary_bufs_sub .., unary_bufs_sub ..,
    binary_bufs_sub .., nullary_bufs_sub .., unary_bufs_sub .., binary_bufs_sub .., binary_bufs_sub .., unary_bufs_sub ..,
    nullary_bufs_sub .., unary_bufs_sub .., binary_bufs_sub .., unary_bufs_sub .., binary_bufs_sub .., binary_bufs_sub ..,
    unary_bufs_sub .., binary_bufs_sub .., unary_bufs_sub .., unary_bufs_sub .., unary_bufs_sub .., unary_bufs_sub ..,
    binary_bufs_sub .., ternary_bufs_sub .., unary_bufs_sub .., nullary_bufs_sub .., binary_bufs_sub .., nullary_bufs_sub ..,
    binary_bufs_sub .., unary_bufs_sub ..⟩

/-! ## What the buffers hold after the line -/

attribute [local irreducible] Host.reduce Host.reduceAdd in
set_option maxRecDepth 8192 in
set_option maxHeartbeats 4000000 in
/-- The fold at the result buffer is the composed term: each operation's result at its own buffer is its function's
    value, at any other what was there; the typed references' casts are the identity at these literal references. The
    reductions are kept folded meanwhile: the equation never looks inside them. -/
theorem out_eq (V : Valuation τ sig (Elt F)) :
    after ops V (main_v51 : DevRef τ sig)
      = tail (V (main_arg2 : DevRef τ sig)) (V (main_arg3 : DevRef τ sig))
          (sim (imgN (V (main_arg0 : DevRef τ sig))) (conN (V (main_arg1 : DevRef τ sig))) (V (main_arg4 : DevRef τ sig))) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

/-! ## The run -/

/-- On every device, for any float values, from any memory with zero counters: every weakly fair execution of @main
    terminates with the result at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v51) = tail (m ((c.tc : Thread nD τ).loc main_arg2)) (m ((c.tc : Thread nD τ).loc main_arg3)) (sim (imgN (m ((c.tc : Thread nD τ).loc main_arg0))) (conN (m ((c.tc : Thread nD τ).loc main_arg1))) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v51).trans (out_eq _),
      (h c main_arg0).trans (arg0_eq _),
      (h c main_arg1).trans (arg1_eq _),
      (h c main_arg2).trans (arg2_eq _),
      (h c main_arg3).trans (arg3_eq _),
      (h c main_arg4).trans (arg4_eq _)⟩)
    (run_seq scopedRefs_eq scopedSems_eq defs main (fun _ => ops) main_eq (fun _ => ops_sub) m ρ)

end Cert.ReferenceIdeal.RefRun

end
-- ==== Proof.KTerms.lean ====
import proofs.«137095_j58832462021082_2_alg».proof.Proof.Gen.KernelIdeal

/-!
# The host side of the idealized kernel program: the terms

What three operand arrays of the region hold when it is entered, and what the host operations after the region
compute from the region's output array, each as one term over the program's arguments: the printed operations
composed in order.
-/

noncomputable section

namespace Cert.KernelIdeal.KHost

open Cert.KernelIdeal Cert.KernelIdeal.Gen Idealize.ShloMosaic

variable {F : FTy → Type} [FloatOps F]

/-! ## The image rows -/

/-- The image operand: each row of `a0` divided by its Euclidean norm (the root of the sum of squares along the
    last axis), the norm floored at the small constant, then rounded to bf16. -/
def imgB (a0 : FVec F S32x576x256 .f32) : FVec F S32x576x256 .bf16 :=
  truncf .bf16
    (Host.divf a0
      (broadcastInDim S32x576x256 ![0, 1, 2] bcast_S32x576x1_S32x576x256_0_1_2
        (maximumf
          (Host.sqrt
            (broadcastInDim S32x576x1 ![0, 1] bcast_S32x576_S32x576x1_0_1
              (Host.reduceAdd (mulf a0 a0) (constant S_ .f32 0x00000000#32) reducesTo_S32x576x256_S32x576_d2 h_S_)))
          (broadcastInDim S32x576x1 ![] bcast_S_S32x576x1 (constant S_ .f32 0x2B8CBCCC#32)))))
    bitsLt_bf16_f32

/-! ## The concept rows -/

/-- The concept operand: each row of `a1` divided by its floored Euclidean norm, rounded to bf16, the two leading
    axes merged (`[32,32,256] → [1024,256]`) and the result transposed to `[256,1024]`. -/
def conT (a1 : FVec F S32x32x256 .f32) : FVec F S256x1024 .bf16 :=
  transpose S256x1024 [1, 0]
    (shapeCast S1024x256
      (truncf .bf16
        (Host.divf a1
          (broadcastInDim S32x32x256 ![0, 1, 2] bcast_S32x32x1_S32x32x256_0_1_2
            (maximumf
              (Host.sqrt
                (broadcastInDim S32x32x1 ![0, 1] bcast_S32x32_S32x32x1_0_1
                  (Host.reduceAdd (mulf a1 a1) (constant S_ .f32 0x00000000#32) reducesTo_S32x32x256_S32x32_d2 h_S_)))
              (broadcastInDim S32x32x1 ![] bcast_S_S32x32x1 (constant S_ .f32 0x2B8CBCCC#32)))))
        bitsLt_bf16_f32)
      shapeCasts_S32x32x256_S1024x256)
    transposes_S1024x256_S256x1024_1_0

/-! ## The weight matrix -/

/-- The lengths `a4` as floats. -/
def lenF (a4 : IVec S32 32) : FVec F S32 .f32 := sitofp .f32 a4

/-- The guarded reciprocal of the lengths: `1 / max(len, 1)` where `len > 0`, zero elsewhere. -/
def invLen (a4 : IVec S32 32) : FVec F S32 .f32 :=
  select
    (cmpf .ogt (lenF (F := F) a4) (broadcastInDim S32 ![] bcast_S_S32 (constant S_ .f32 0x00000000#32)))
    (Host.divf
      (broadcastInDim S32 ![] bcast_S_S32 (constant S_ .f32 0x3F800000#32))
      (maximumf (lenF a4) (broadcastInDim S32 ![] bcast_S_S32 (constant S_ .f32 0x3F800000#32))))
    (broadcastInDim S32 ![] bcast_S_S32 (id (constant S_ .f32 0x00000000#32)))

/-- The mask `[k < len b]` at `(b, k)`, as a float. -/
def maskF (a4 : IVec S32 32) : FVec F S32x32 .f32 :=
  uitofp .f32
    (cmpi .slt
      (broadcastInDim S32x32 ![0, 1] bcast_S1x32_S32x32_0_1
        (broadcastInDim S1x32 ![1] bcast_S32_S1x32_1 (iotaInDim S32 32 0)))
      (broadcastInDim S32x32 ![0, 1] bcast_S32x1_S32x32_0_1
        (broadcastInDim S32x1 ![0] bcast_S32_S32x1_0 a4)))

/-- The per-concept weight at `(b, k)`: the mask times the guarded reciprocal of row `b`'s length. -/
def wgt (a4 : IVec S32 32) : FVec F S32x32 .f32 :=
  mulf (maskF a4)
    (broadcastInDim S32x32 ![0, 1] bcast_S32x1_S32x32_0_1
      (broadcastInDim S32x1 ![0] bcast_S32_S32x1_0 (invLen a4)))

/-- The row index of the merged axis: the floor division of `0 … 1023` by `32`, as printed (the truncated quotient,
    lowered by one where the signs differ and the remainder is not zero). -/
def rowIx : IVec S1024 32 :=
  select
    (andi
      (cmpi .ne (signi (iotaInDim S1024 32 0))
        (broadcastInDim S1024 ![] bcast_S_S1024 (signi (id (constantI S_ 32 32#32)))))
      (cmpi .ne
        (Host.remsi (iotaInDim S1024 32 0) (broadcastInDim S1024 ![] bcast_S_S1024 (id (constantI S_ 32 32#32))))
        (broadcastInDim S1024 ![] bcast_S_S1024 (constantI S_ 32 0#32))))
    (subi
      (Host.divsi (iotaInDim S1024 32 0) (broadcastInDim S1024 ![] bcast_S_S1024 (id (constantI S_ 32 32#32))))
      (broadcastInDim S1024 ![] bcast_S_S1024 (constantI S_ 32 1#32)))
    (Host.divsi (iotaInDim S1024 32 0) (broadcastInDim S1024 ![] bcast_S_S1024 (id (constantI S_ 32 32#32))))

/-- The weight operand: at `(r, j)` the weight of merged row `r` where `r / 32 = j`, zero elsewhere. -/
def wg (a4 : IVec S32 32) : FVec F S1024x32 .f32 :=
  select
    (cmpi .eq
      (broadcastInDim S1024x32 ![0, 1] bcast_S1024x1_S1024x32_0_1
        (broadcastInDim S1024x1 ![0] bcast_S1024_S1024x1_0 rowIx))
      (broadcastInDim S1024x32 ![0, 1] bcast_S1x32_S1024x32_0_1
        (broadcastInDim S1x32 ![1] bcast_S32_S1x32_1 (iotaInDim S32 32 0))))
    (broadcastInDim S1024x32 ![0, 1] bcast_S1024x1_S1024x32_0_1
      (broadcastInDim S1024x1 ![0] bcast_S1024_S1024x1_0
        (shapeCast S1024 (wgt (F := F) a4) shapeCasts_S32x32_S1024)))
    (broadcastInDim S1024x32 ![] bcast_S_S1024x32 (id (constant S_ .f32 0x00000000#32)))

/-! ## The tail -/

/-- The scale: `exp` of `a2` clipped to `[-10, 10]`. -/
def scale (a2 : FVec F S1 .f32) : FVec F S1 .f32 :=
  Host.exp
    (minimumf
      (broadcastInDim S1 ![] bcast_S_S1 (id (constant S_ .f32 0x41200000#32)))
      (maximumf (broadcastInDim S1 ![] bcast_S_S1 (id (constant S_ .f32 0xC1200000#32))) a2))

/-- The logits: the similarities `s` times the scale plus the bias `a3`, clipped to `[-50, 50]`. -/
def logits (a2 a3 : FVec F S1 .f32) (s : FVec F S32x32 .f32) : FVec F S32x32 .f32 :=
  minimumf
    (broadcastInDim S32x32 ![] bcast_S_S32x32 (id (constant S_ .f32 0x42480000#32)))
    (maximumf
      (broadcastInDim S32x32 ![] bcast_S_S32x32 (id (constant S_ .f32 0xC2480000#32)))
      (addf
        (mulf (broadcastInDim S32x32 ![] bcast_S_S32x32 (shapeCast S_ (scale a2) shapeCasts_S1_S_)) s)
        (broadcastInDim S32x32 ![] bcast_S_S32x32 (shapeCast S_ a3 shapeCasts_S1_S_))))

/-- The labels: `2 · [i = j] − 1` at `(i, j)`. -/
def labels : FVec F S32x32 .f32 :=
  subf
    (mulf
      (broadcastInDim S32x32 ![] bcast_S_S32x32 (constant S_ .f32 0x40000000#32))
      (uitofp .f32
        (cmpi .eq
          (addi (iotaInDim S32x32 32 0) (broadcastInDim S32x32 ![] bcast_S_S32x32 (constantI S_ 32 0#32)))
          (iotaInDim S32x32 32 1))))
    (broadcastInDim S32x32 ![] bcast_S_S32x32 (constant S_ .f32 0x3F800000#32))

/-- The softplus as printed: `max(x, 0) + log1p(exp(−|x − 0|))`, and `x + 0` where `x − 0` is not a number. -/
def softplus (x : FVec F S32x32 .f32) : FVec F S32x32 .f32 :=
  select
    (cmpf .une
      (subf x (broadcastInDim S32x32 ![] bcast_S_S32x32 (constant S_ .f32 0x00000000#32)))
      (subf x (broadcastInDim S32x32 ![] bcast_S_S32x32 (constant S_ .f32 0x00000000#32))))
    (addf x (broadcastInDim S32x32 ![] bcast_S_S32x32 (constant S_ .f32 0x00000000#32)))
    (addf
      (maximumf x (broadcastInDim S32x32 ![] bcast_S_S32x32 (constant S_ .f32 0x00000000#32)))
      (Host.log1p (Host.exp (Host.negf (Host.absf
        (subf x (broadcastInDim S32x32 ![] bcast_S_S32x32 (constant S_ .f32 0x00000000#32))))))))

/-- The log-sigmoid as printed: `−softplus(−x)`. -/
def logSigmoid (x : FVec F S32x32 .f32) : FVec F S32x32 .f32 :=
  Host.negf (softplus (Host.negf x))

/-- The loss: minus the sum over all `(i, j)` of the log-sigmoid of label times logit, divided by `1024`. -/
def tail (a2 a3 : FVec F S1 .f32) (s : FVec F S32x32 .f32) : FVec F S_ .f32 :=
  Host.negf
    (Host.divf
      (Host.reduceAdd (logSigmoid (mulf labels (logits a2 a3 s))) (constant S_ .f32 0x00000000#32)
        reducesTo_S32x32_S_d0_1 h_S_)
      (constant S_ .f32 0x44800000#32))

end Cert.KernelIdeal.KHost

end
-- ==== Proof.KHost.lean ====
import proofs.«137095_j58832462021082_2_alg».proof.Proof.KTerms
import proofs.«137095_j58832462021082_2_alg».proof.Proof.Gen.KernelIdeal.Frame
import Idealize.ShloMosaic.Lib.StableHlo.Run

/-!
# The host side of the idealized kernel program: the read-back

The three operand arrays of the region, when it is entered, hold the terms `imgB`, `conT`, `wg` of the program's
arguments; the host operations after the region compute `tail` from the region's output array.
-/

set_option maxRecDepth 16384

noncomputable section

namespace Cert.KernelIdeal.KHost

open Cert.KernelIdeal Cert.KernelIdeal.Gen Idealize.ShloMosaic Idealize.ShloMosaic.TcCoe Idealize.SL.Sem
open Idealize.ShloMosaic.StableHlo

variable {F : FTy → Type} [FloatOps F]

variable (m : (ℓ : Loc nD τ sig) → Buf (Elt F) ℓ)

/-! ## The operand arrays when the region is entered -/

set_option maxHeartbeats 2000000 in
/-- The first operand array holds the normalised image rows of `%arg0`. -/
theorem V_v10 (c : Dev nD) : V m c main_v10 = imgB (m ((c : Thread nD τ).loc main_arg0)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl

set_option maxHeartbeats 2000000 in
/-- The second operand array holds the normalised concept rows of `%arg1`, merged and transposed. -/
theorem V_v13 (c : Dev nD) : V m c main_v13 = conT (m ((c : Thread nD τ).loc main_arg1)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl

set_option maxHeartbeats 4000000 in
/-- The third operand array holds the block-diagonal weight matrix of `%arg4`. -/
theorem V_v42 (c : Dev nD) : V m c main_v42 = wg (m ((c : Thread nD τ).loc main_arg4)) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  rfl

/-! ## The host operations after the region -/

/-- At the region's exit the scale argument is as launched: no window stages it and no host operation before the
    region writes it. -/
theorem exit_arg2 (c : Dev nD) :
    Pipeline.withArrays (cfgs 0).spec c (V0 m c) (fun w => (dats m 0 c).arrAt w (cfgs 0).N) (Proc.devRef .tc main_arg2)
      = m ((c : Thread nD τ).loc main_arg2) := by
  rw [Pipeline.withArrays_of_ne _ c (V0 m c) _ main_arg2 (by exact (by decide : ∀ w, Pipeline.arrRef spec0 w ≠ main_arg2))]
  exact V_main_arg2 m c

/-- Likewise the bias argument. -/
theorem exit_arg3 (c : Dev nD) :
    Pipeline.withArrays (cfgs 0).spec c (V0 m c) (fun w => (dats m 0 c).arrAt w (cfgs 0).N) (Proc.devRef .tc main_arg3)
      = m ((c : Thread nD τ).loc main_arg3) := by
  rw [Pipeline.withArrays_of_ne _ c (V0 m c) _ main_arg3 (by exact (by decide : ∀ w, Pipeline.arrRef spec0 w ≠ main_arg3))]
  exact V_main_arg3 m c

/-- At the region's exit the output array holds what the pipeline's last flush left in it. -/
theorem exit_v43 (c : Dev nD) :
    Pipeline.withArrays (cfgs 0).spec c (V0 m c) (fun w => (dats m 0 c).arrAt w (cfgs 0).N) (Proc.devRef .tc main_v43)
      = (dats m 0 c).arrAt 3 cfg0.N :=
  Pipeline.withArrays_arr spec0 launch0.win.arr_inj c _ _ 3

set_option maxHeartbeats 4000000 in
/-- The program's result: the loss `tail` of the scale argument, the bias argument and the region's output array. -/
theorem tail_eq (c : Dev nD) :
    Pipeline.afterTail₀ cfgs (dats m) 0 (V0 m) [hostOps1, hostOps1_1, hostOps1_2, hostOps1_3, hostOps1_4, hostOps1_5, hostOps1_6] c main_v67
      = tail (m ((c : Thread nD τ).loc main_arg2)) (m ((c : Thread nD τ).loc main_arg3)) ((dats m 0 c).arrAt 3 cfg0.N) := by
  unfold Pipeline.afterTail₀
  simp only [Gen.hostOps1, Gen.hostOps1_1, Gen.hostOps1_2, Gen.hostOps1_3, Gen.hostOps1_4, Gen.hostOps1_5, Gen.hostOps1_6, List.flatten_cons, List.flatten_nil, List.append_nil, List.cons_append, List.nil_append]
  after_results_simp
  rw [exit_arg2 m c, exit_arg3 m c, exit_v43 m c]
  rfl

end Cert.KernelIdeal.KHost

end
-- ==== Proof.LibPlainDot.lean ====
/-
  A PLAIN MATRIX PRODUCT'S CONTRACTION AS A SUM OVER ITS INNER EXTENT.

  For dimension numbers of a product of an [M, K] matrix with a [K, N] matrix into [M, N] — one contracted axis, the
  left operand's second against the right operand's first, no batch axis — the contraction ranges over a rank-one
  index type of extent K. Whenever the record's operand indices at result entry (r, c) and contraction position k are
  (r, k) and (k, c) (four coordinate equations, each `rfl` for a record with literal axis lists), the contraction
      ∑ k, lhs (lhsIdx (r, c) k) * rhs (rhsIdx (r, c) k)
  is ∑ k : Fin K, lhs (r, k) * rhs (k, c). Both a vector unit's product into a zero accumulator and a host
  dot_general read as that contraction at the exact instance, so both are this sum.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

/-- The contraction of a plain product at entry `(r, c)`, re-indexed by the one contraction coordinate. -/
theorem contraction_eq_sum {M K N : Nat} (d : DotDims ⟨2, ![M, K]⟩ ⟨2, ![K, N]⟩ ⟨2, ![M, N]⟩)
    (hr : d.contr.rank = 1) (hs : d.contr.size ⟨0, by omega⟩ = K)
    (h1 : ∀ (j : (⟨2, ![M, N]⟩ : Shape).Idx) (k : d.contr.Idx), (d.lhsIdx j k 0).val = (j 0).val)
    (h2 : ∀ (j : (⟨2, ![M, N]⟩ : Shape).Idx) (k : d.contr.Idx), (d.lhsIdx j k 1).val = (k ⟨0, by omega⟩).val)
    (h3 : ∀ (j : (⟨2, ![M, N]⟩ : Shape).Idx) (k : d.contr.Idx), (d.rhsIdx j k 0).val = (k ⟨0, by omega⟩).val)
    (h4 : ∀ (j : (⟨2, ![M, N]⟩ : Shape).Idx) (k : d.contr.Idx), (d.rhsIdx j k 1).val = (j 1).val)
    (lhs : (⟨2, ![M, K]⟩ : Shape).Idx → EReal) (rhs : (⟨2, ![K, N]⟩ : Shape).Idx → EReal) (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hr hs).symm]
  refine Finset.sum_congr rfl fun k _ => ?_
  have el : d.lhsIdx (ix2 r c) ((contrEquiv1 d K hr hs).symm k) = ix2 r k := by
    funext a
    refine Fin.ext ?_
    match a with
    | ⟨0, _⟩ => exact h1 _ _
    | ⟨1, _⟩ => exact (h2 _ _).trans (contrEquiv1_symm_val d K hr hs k)
  have er : d.rhsIdx (ix2 r c) ((contrEquiv1 d K hr hs).symm k) = ix2 k c := by
    funext a
    refine Fin.ext ?_
    match a with
    | ⟨0, _⟩ => exact (h3 _ _).trans (contrEquiv1_symm_val d K hr hs k)
    | ⟨1, _⟩ => exact h4 _ _
  rw [el, er]

end Idealize.ShloMosaic.PlainDot

end
-- ==== Proof.RowPayload.lean ====
/-
  ONE ROW OF THE SIMILARITY BLOCK, READ AT AN ENTRY.

  For one image (a [1, 576, 256] slab of normalised patch rows), the transposed concept matrix T of shape
  [256, 1024] and a weight matrix G of shape [1024, 32], the kernel body computes the [1, 32] row whose entry c is
      ∑_{k < 1024} ( max_{n < 576} ∑_{d < 256} x[0, n, d] · T[d, k] ) · G[k, c] :
  a product of the patch rows with T, the maximum of each of the 1024 columns over the 576 patches (started from the
  pattern of -∞), and a product of that row of maxima with G. Read on the extended reals both products are plain
  contractions over their inner extent and the column maximum is a fold of max over the patches.
-/
import proofs.«137095_j58832462021082_2_alg».proof.Proof.Gen.KernelIdeal.Skeleton
import proofs.«137095_j58832462021082_2_alg».proof.Proof.LibPlainDot
import Idealize.ShloMosaic.Lib.ValueLayout
import Idealize.ShloMosaic.Lib.Pipeline.Value
import Idealize.ShloMosaic.PureOps.Ideal.Laws

noncomputable section

open scoped BigOperators

namespace Cert.KernelIdeal.RowValue

open Cert.KernelIdeal Cert.KernelIdeal.Gen Idealize.ShloMosaic Idealize.ShloMosaic.ValueIdx

/-- The maximum over the 576 patches of the patch rows' products with column `k` of `T`, started from the pattern of -∞;
    the patch rows are given as a function `xr n d` of the patch and the feature. -/
def colMax (T : (⟨2, ![256, 1024]⟩ : Shape).Idx → EReal) (xr : Fin 576 → Fin 256 → EReal) (k : Fin 1024) : EReal :=
  (Finset.univ : Finset (Fin 576)).fold max (Ideal.ofBits .f32 0xFF800000#32)
    (fun n => ∑ d : Fin 256, xr n d * T (ix2 d k))

/-- Entry `c` of one image's row: the column maxima contracted with column `c` of the weights. -/
def entry (T : (⟨2, ![256, 1024]⟩ : Shape).Idx → EReal) (G : (⟨2, ![1024, 32]⟩ : Shape).Idx → EReal)
    (xr : Fin 576 → Fin 256 → EReal) (c : Fin 32) : EReal :=
  ∑ k : Fin 1024, colMax T xr k * G (ix2 k c)

/-- The whole [32, 32] similarity array as one function of the three operand arrays: entry `(i, c)` is image `i`'s row
    at `c`. -/
def simArr (A0 : (⟨3, ![32, 576, 256]⟩ : Shape).Idx → EReal) (A1 : (⟨2, ![256, 1024]⟩ : Shape).Idx → EReal)
    (A2 : (⟨2, ![1024, 32]⟩ : Shape).Idx → EReal) : (⟨2, ![32, 32]⟩ : Shape).Idx → EReal :=
  fun i => entry A1 A2 (fun n d => A0 (ix3 (i 0) n d)) (i 1)

/-- The source index over a column of a [576, 1024] array with the row inserted is (row, column). -/
theorem lift_col (k : Fin 1024) (n : Fin 576) :
    (reduces_S576x1024_S1024 : S576x1024.Reduces [0] S1024).lift (ix1 k) n = ix2 n k := by
  funext a
  refine Fin.ext ?_
  match a with
  | ⟨0, _⟩ => rfl
  | ⟨1, _⟩ => rfl

/-- The body's row at entry `c`: the contraction of the column maxima with column `c` of the weights. -/
theorem row_apply (T : FVec Ideal S256x1024 .bf16) (G : FVec Ideal S1024x32 .f32) (x : Vec Ideal S1x576x256 .bf16)
    (u : Fin 1) (c : Fin 32) :
    k0_pay2 (F := Ideal) T G x (ix2 u c) = entry T G (fun n d => x (ix3 (0 : Fin 1) n d)) c := by
  unfold k0_pay2 entry
  refine (shapeCast_a_1a_apply _ _ u c).trans ?_
  refine (shapeCast_1a_a_apply _ _ c).trans ?_
  refine (Ideal.matmul_constant_zero_apply _ _ _ _ _).trans ?_
  refine (PlainDot.contraction_eq_sum dot_S1x1024_S1024x32_S1x32_1_0_0_1_n_n rfl rfl (fun _ _ => rfl) (fun _ _ => rfl)
    (fun _ _ => rfl) (fun _ _ => rfl) _ _ (0 : Fin 1) c).trans ?_
  refine Finset.sum_congr rfl fun k _ => congrArg (· * G (ix2 k c)) ?_
  refine (shapeCast_a_1a_apply _ _ (0 : Fin 1) k).trans ?_
  refine (Ideal.multiReduction_maximumf_single _ _ reduces_S576x1024_S1024 _ _ (ix1 k)).trans ?_
  unfold colMax
  refine congrArg (fun f => (Finset.univ : Finset (Fin 576)).fold max (Ideal.ofBits .f32 0xFF800000#32) f) ?_
  refine funext fun (n : Fin 576) => ?_
  refine (congrArg (matmul dot_S576x256_S256x1024_S576x1024_1_0_0_1_n_n none
    (shapeCast S576x256 x shapeCasts_S1x576x256_S576x256) T (constant S576x1024 .f32 0x00000000#32)) (lift_col k n)).trans ?_
  refine (Ideal.matmul_constant_zero_apply dot_S576x256_S256x1024_S576x1024_1_0_0_1_n_n none
    (shapeCast S576x256 x shapeCasts_S1x576x256_S576x256) T (ix2 n k)).trans ?_
  refine (PlainDot.contraction_eq_sum dot_S576x256_S256x1024_S576x1024_1_0_0_1_n_n rfl rfl (fun _ _ => rfl) (fun _ _ => rfl)
    (fun _ _ => rfl) (fun _ _ => rfl) _ _ n k).trans ?_
  refine Finset.sum_congr rfl fun d _ => congrArg (· * T (ix2 d k)) ?_
  exact shapeCast_1ab_ab_apply _ _ n d

end Cert.KernelIdeal.RowValue

end
-- ==== Proof.BlockValue.lean ====
/-
  ONE GRID POINT'S OUTPUT BLOCK, ENTRY BY ENTRY.

  A grid point holds eight images x0[j] (j < 8), the whole transposed concept matrix x1 and the whole weight matrix
  x2, and stores eight rows into its [8, 32] output block: row j is the row of image j (the column maxima of
  x0[j] · x1 contracted with x2). The eight stores tile the block, so the block's entry (j, c) is that row's entry c.
-/
import proofs.«137095_j58832462021082_2_alg».proof.Proof.Gen.KernelIdeal.Frame
import proofs.«137095_j58832462021082_2_alg».proof.Proof.RowPayload

noncomputable section

open scoped BigOperators

namespace Cert.KernelIdeal.BlockValue

open Cert.KernelIdeal Cert.KernelIdeal.Gen Cert.KernelIdeal.RowValue Idealize.ShloMosaic Idealize.ShloMosaic.ValueIdx

/-- Entry `(j, c)` of a grid point's block: image `j`'s row at `c`. -/
def blockEntry (x0 : (⟨3, ![8, 576, 256]⟩ : Shape).Idx → EReal) (x1 : (⟨2, ![256, 1024]⟩ : Shape).Idx → EReal)
    (x2 : (⟨2, ![1024, 32]⟩ : Shape).Idx → EReal) (j : Fin 8) (c : Fin 32) : EReal :=
  entry x1 x2 (fun n d => x0 (ix3 j n d)) c

theorem hz2 : (![0, 0] : Fin 2 → Nat) = fun _ => 0 := funext fun a => by fin_cases a <;> rfl

/-- The whole transposed concept matrix, loaded and recast to its own shape, is itself. -/
theorem whole_T (x1 : Vec Ideal S256x1024 .bf16) : k0_pay4 (F := Ideal) (View.ld x1 r0_0) = x1 := by
  unfold k0_pay4
  rw [shapeCast_self]
  exact View.ld_unit_zero (S := S256x1024) hz2 _ x1

/-- The whole weight matrix likewise. -/
theorem whole_G (x2 : Vec Ideal S1024x32 .f32) : k0_pay5 (F := Ideal) (View.ld x2 r0_1) = x2 := by
  unfold k0_pay5
  rw [shapeCast_self]
  exact View.ld_unit_zero (S := S1024x32) hz2 _ x2

/-- The slab loaded for image `j` reads the block's image `j`. -/
theorem ld_image (x0 : Vec Ideal S8x576x256 .bf16) (j : Fin 8)
    (inb : ∀ a, (![j.val, 0, 0] : Fin 3 → Nat) a + S1x576x256.size a ≤ S8x576x256.size a) (n : Fin 576) (d : Fin 256) :
    View.ld x0 (Rect.unit (s := S8x576x256) ![j.val, 0, 0] S1x576x256.size inb) (ix3 (0 : Fin 1) n d) = x0 (ix3 j n d) := by
  show x0 _ = x0 _
  refine congrArg x0 (funext fun a => Fin.ext ?_)
  match a with
  | ⟨0, _⟩ => show j.val + 1 * 0 = j.val; omega
  | ⟨1, _⟩ => show 0 + 1 * n.val = n.val; omega
  | ⟨2, _⟩ => show 0 + 1 * d.val = d.val; omega

/-- Store `j`'s payload at a local index is the block entry its rectangle names. -/
theorem piece (x0 : Vec Ideal S8x576x256 .bf16) (x1 : Vec Ideal S256x1024 .bf16) (x2 : Vec Ideal S1024x32 .f32) (j : Fin 8)
    (inbI : ∀ a, (![j.val, 0, 0] : Fin 3 → Nat) a + S1x576x256.size a ≤ S8x576x256.size a)
    (inbO : ∀ a, (![j.val, 0] : Fin 2 → Nat) a + S1x32.size a ≤ S8x32.size a)
    (x : (⟨2, ![1, 32]⟩ : Shape).Idx) :
    k0_pay2 (F := Ideal) (k0_pay4 (View.ld x1 r0_0)) (k0_pay5 (View.ld x2 r0_1))
        (View.ld x0 (Rect.unit (s := S8x576x256) ![j.val, 0, 0] S1x576x256.size inbI)) x
      = blockEntry x0 x1 x2 ((Rect.unit (s := S8x32) ![j.val, 0] S1x32.size inbO).emb x 0)
          ((Rect.unit (s := S8x32) ![j.val, 0] S1x32.size inbO).emb x 1) := by
  obtain ⟨u, cc, rfl⟩ : ∃ (u : Fin 1) (cc : Fin 32), x = ix2 u cc := ⟨x 0, x 1, eq_ix2 x⟩
  rw [whole_T, whole_G]
  refine (row_apply _ _ _ u cc).trans ?_
  unfold blockEntry
  have h0 : u.val < 1 := u.isLt
  have e0 : (Rect.unit (s := S8x32) ![j.val, 0] S1x32.size inbO).emb (ix2 u cc) 0 = j :=
    Fin.ext (by show j.val + 1 * u.val = j.val; omega)
  have e1 : (Rect.unit (s := S8x32) ![j.val, 0] S1x32.size inbO).emb (ix2 u cc) 1 = cc :=
    Fin.ext (by show 0 + 1 * cc.val = cc.val; omega)
  rw [e0, e1]
  refine congrArg (fun f => entry x1 x2 f cc) ?_
  funext n d
  exact ld_image x0 j inbI n d

/-- THE BLOCK: entry `(j, c)` of what the body leaves in the output block. -/
theorem block_apply (x0 : Vec Ideal S8x576x256 .bf16) (x1 : Vec Ideal S256x1024 .bf16) (x2 : Vec Ideal S1024x32 .f32)
    (j : Fin 8) (c : Fin 32) : out0_3 (F := Ideal) x0 x1 x2 (ix2 j c) = blockEntry x0 x1 x2 j c := by
  unfold out0_3
  refine View.canon_apply_of_pieces (Val := Elt Ideal) (fun y : S8x32.Idx => (blockEntry x0 x1 x2 (y 0) (y 1) : Elt Ideal .f32)) _ ?_ (ix2 j c)
    (cover0_3 _ _ _ _ _ _ _ _ (ix2 j c))
  intro p hp x
  simp only [List.mem_cons, List.mem_nil_iff, or_false] at hp
  rcases hp with rfl | rfl | rfl | rfl | rfl | rfl | rfl | rfl
  · exact piece x0 x1 x2 7 inb_S8x576x256_S1x576x256_7_0_0 inb_S8x32_S1x32_7_0 x
  · exact piece x0 x1 x2 6 inb_S8x576x256_S1x576x256_6_0_0 inb_S8x32_S1x32_6_0 x
  · exact piece x0 x1 x2 5 inb_S8x576x256_S1x576x256_5_0_0 inb_S8x32_S1x32_5_0 x
  · exact piece x0 x1 x2 4 inb_S8x576x256_S1x576x256_4_0_0 inb_S8x32_S1x32_4_0 x
  · exact piece x0 x1 x2 3 inb_S8x576x256_S1x576x256_3_0_0 inb_S8x32_S1x32_3_0 x
  · exact piece x0 x1 x2 2 inb_S8x576x256_S1x576x256_2_0_0 inb_S8x32_S1x32_2_0 x
  · exact piece x0 x1 x2 1 inb_S8x576x256_S1x576x256_1_0_0 inb_S8x32_S1x32_1_0 x
  · exact piece x0 x1 x2 0 inb_S8x576x256_S1x576x256_0_0_0 inb_S8x32_S1x32_0_0 x

end Cert.KernelIdeal.BlockValue

end
-- ==== Proof.ArrayValue.lean ====
/-
  THE SIMILARITY ARRAY AFTER THE REGION.

  Grid point t (of four) reads images 8t … 8t + 7 of the normalised image array, the whole transposed concept matrix
  and the whole weight matrix, and writes rows 8t … 8t + 7 of the [32, 32] similarity array. The four blocks tile
  the array, so after the region its entry (i, c) is image i's row at c: the column maxima of image i against the
  concept matrix, contracted with column c of the weights.
-/
import proofs.«137095_j58832462021082_2_alg».proof.Proof.Gen.KernelIdeal.Frame
import proofs.«137095_j58832462021082_2_alg».proof.Proof.BlockValue
import Idealize.ShloMosaic.Lib.Pipeline.Value

noncomputable section

open scoped BigOperators

namespace Cert.KernelIdeal.ArrayValue

open Cert.KernelIdeal Cert.KernelIdeal.Gen Cert.KernelIdeal.RowValue Cert.KernelIdeal.BlockValue
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The printed index maps over the grid: the image window and the output window move together along the first axis,
    every other block index is zero. -/
theorem idx_facts : ∀ t : Fin cfg0.N, win0_0.index t (0 : Fin 3) = win0_3.index t (0 : Fin 2)
    ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 3 :=
  (by decide +kernel : ∀ t : Fin grid0.N, _)

/-- Every block of rows is some point's. -/
theorem idx_onto : ∀ q : Fin 4, ∃ t : Fin cfg0.N, win0_3.index t = ![q.val, 0] :=
  (by decide +kernel : ∀ q : Fin 4, ∃ t : Fin grid0.N, win0_3.index t = ![q.val, 0])

/-- The concept window's block is the whole array at every point. -/
theorem iblk1_apply (c : Dev nD) (t : Fin cfg0.N) (i : S256x1024.Idx) :
    (iblk m c 1 t : S256x1024.Idx → EReal) i = (V m c main_v13 : S256x1024.Idx → EReal) i := by
  obtain ⟨-, -, -, e10, e11, -, -, -, -⟩ := idx_facts t
  unfold iblk
  rw [View.read_apply]
  show V m c main_v13 _ = V m c main_v13 _
  refine congrArg (V m c main_v13) (funext fun a => Fin.ext ?_)
  match a with
  | ⟨0, _⟩ => show win0_1.index t (0 : Fin 2) * 256 + 1 * (i 0).val = (i 0).val; rw [e10]; omega
  | ⟨1, _⟩ => show win0_1.index t (1 : Fin 2) * 1024 + 1 * (i 1).val = (i 1).val; rw [e11]; omega

/-- The weight window's block is the whole array at every point. -/
theorem iblk2_apply (c : Dev nD) (t : Fin cfg0.N) (i : S1024x32.Idx) :
    (iblk m c 2 t : S1024x32.Idx → EReal) i = (V m c main_v42 : S1024x32.Idx → EReal) i := by
  obtain ⟨-, -, -, -, -, e20, e21, -, -⟩ := idx_facts t
  unfold iblk
  rw [View.read_apply]
  show V m c main_v42 _ = V m c main_v42 _
  refine congrArg (V m c main_v42) (funext fun a => Fin.ext ?_)
  match a with
  | ⟨0, _⟩ => show win0_2.index t (0 : Fin 2) * 1024 + 1 * (i 0).val = (i 0).val; rw [e20]; omega
  | ⟨1, _⟩ => show win0_2.index t (1 : Fin 2) * 32 + 1 * (i 1).val = (i 1).val; rw [e21]; omega

/-- Image `j` of the image window's block at point `t` is image `8 t + j` of the array: the row the output block's
    row `j` lands on. -/
theorem iblk0_apply (c : Dev nD) (t : Fin cfg0.N) (j : Fin 8) (n : Fin 576) (d : Fin 256) (r : Fin 32)
    (hr : r.val = win0_3.index t (0 : Fin 2) * 8 + j.val) :
    (iblk m c 0 t : S8x576x256.Idx → EReal) (ix3 j n d) = (V m c main_v10 : S32x576x256.Idx → EReal) (ix3 r n d) := by
  obtain ⟨e00, e01, e02, -, -, -, -, -, -⟩ := idx_facts t
  unfold iblk
  rw [View.read_apply]
  show V m c main_v10 _ = V m c main_v10 _
  refine congrArg (V m c main_v10) (funext fun a => Fin.ext ?_)
  match a with
  | ⟨0, _⟩ => show win0_0.index t (0 : Fin 3) * 8 + 1 * j.val = r.val; rw [e00, hr]; omega
  | ⟨1, _⟩ => show win0_0.index t (1 : Fin 3) * 576 + 1 * n.val = n.val; rw [e01]; omega
  | ⟨2, _⟩ => show win0_0.index t (2 : Fin 3) * 256 + 1 * d.val = d.val; rw [e02]; omega

/-- WHAT POINT `t` WRITES BACK is block `t` of the similarity array of the operand arrays as the region finds them. -/
theorem flushed_eq (c : Dev nD) (t : Fin cfg0.N) :
    (dats m 0 c).flushed 3 t
      = ((cfg0.win 3).blk t).view.read (Elt Ideal) (simArr (V m c main_v10) (V m c main_v13) (V m c main_v42)) := by
  show (cfg0.win 3).cut (grid0.coords t) ((dats m 0 c).after 3 t) = _
  rw [after0_3]
  obtain ⟨-, -, -, -, -, -, -, e31, e3b⟩ := idx_facts t
  funext y
  obtain ⟨j, cc, rfl⟩ : ∃ (j : Fin 8) (cc : Fin 32), y = ix2 j cc := ⟨y 0, y 1, eq_ix2 y⟩
  show out0_3 (F := Ideal) (iblk m c 0 t) (iblk m c 1 t) (iblk m c 2 t) (ix2 j cc)
      = simArr (V m c main_v10) (V m c main_v13) (V m c main_v42) (((cfg0.win 3).blk t).view.emb (ix2 j cc))
  refine (block_apply _ _ _ j cc).trans ?_
  have hE0 : ((((cfg0.win 3).blk t).view.emb (ix2 j cc)) 0).val = win0_3.index t (0 : Fin 2) * 8 + j.val := by
    show win0_3.index t (0 : Fin 2) * 8 + 1 * j.val = _; omega
  have hE1 : (((cfg0.win 3).blk t).view.emb (ix2 j cc)) 1 = cc :=
    Fin.ext (by show win0_3.index t (1 : Fin 2) * 32 + 1 * cc.val = cc.val; rw [e31]; omega)
  unfold blockEntry simArr
  rw [hE1]
  have hT : (iblk m c 1 t : S256x1024.Idx → EReal) = V m c main_v13 := funext (iblk1_apply m c t)
  have hG : (iblk m c 2 t : S1024x32.Idx → EReal) = V m c main_v42 := funext (iblk2_apply m c t)
  rw [hT, hG]
  refine congrArg (fun f => entry (V m c main_v13) (V m c main_v42) f cc) ?_
  funext n d
  exact iblk0_apply m c t j n d _ hE0

/-- An index of the array is in point `t`'s block iff each coordinate is in the block's range on its axis. -/
theorem mem_blk (t : Fin cfg0.N) (i : S32x32.Idx) :
    i ∈ ((cfg0.win 3).blk t).view.set ↔ ∀ a : Fin 2, win0_3.index t a * S8x32.size a ≤ (i a).val
      ∧ (i a).val < win0_3.index t a * S8x32.size a + S8x32.size a := by
  show i ∈ ((View.whole main_v43).slice (win0_3.rect t)).set ↔ _
  rw [View.set_slice_whole, Rect.mem_set_unit]
  exact Iff.rfl

/-- The four blocks of eight rows cover the array. -/
theorem cover (i : S32x32.Idx) : ∃ t : Fin cfg0.N, (cfg0.win 3).flush t = true ∧ i ∈ ((cfg0.win 3).blk t).view.set := by
  have hi0 : (i 0).val < 32 := (i 0).isLt
  have hi1 : (i 1).val < 32 := (i 1).isLt
  obtain ⟨t, ht⟩ := idx_onto ⟨(i 0).val / 8, by omega⟩
  have q0 : win0_3.index t (0 : Fin 2) = (i 0).val / 8 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 8 ≤ (i 0).val ∧ (i 0).val < win0_3.index t (0 : Fin 2) * 8 + 8; omega
  | ⟨1, _⟩ => show win0_3.index t (1 : Fin 2) * 32 ≤ (i 1).val ∧ (i 1).val < win0_3.index t (1 : Fin 2) * 32 + 32; omega

/-- THE ARRAY after the region. -/
theorem final (c : Dev nD) :
    (dats m 0 c).arrAt 3 cfg0.N = simArr (V m c main_v10) (V m c main_v13) (V m c main_v42) :=
  (dats m 0 c).arrAt_eq_of_cover 3 _ (fun t _ => flushed_eq m c t) cover

end Cert.KernelIdeal.ArrayValue

end
-- ==== Proof.KernelRun.lean ====
/-
  THE KERNEL'S RUN, READ: every weakly fair execution ends with the result at the loss of the similarity array of the
  three operand arrays — the normalised images, the merged and transposed normalised concepts, the block-diagonal
  weights —, each a function of the arguments, and the arguments unchanged.
-/
import proofs.«137095_j58832462021082_2_alg».proof.Proof.Gen.KernelIdeal.Frame
import proofs.«137095_j58832462021082_2_alg».proof.Proof.KHost
import proofs.«137095_j58832462021082_2_alg».proof.Proof.ArrayValue

noncomputable section

namespace Cert.KernelIdeal.KernelRun

open Cert.KernelIdeal Cert.KernelIdeal.Gen Cert.KernelIdeal.KHost Cert.KernelIdeal.RowValue Cert.KernelIdeal.ArrayValue
open Idealize.ShloMosaic Idealize.ShloMosaic.TcCoe Idealize.SL.Sem

variable (m : (ℓ : Loc nD τ sig) → Buf (Elt Ideal) ℓ) (ρ : Dev nD → PrngReg)

/-- What the host operations after the region leave in the result buffer. -/
theorem result (c : Dev nD) :
    Pipeline.afterTail₀ cfgs (dats m) 0 (V0 m) [hostOps1, hostOps1_1, hostOps1_2, hostOps1_3, hostOps1_4, hostOps1_5, hostOps1_6] c main_v67
      = tail (F := Ideal) (m ((c : Thread nD τ).loc main_arg2)) (m ((c : Thread nD τ).loc main_arg3))
          (simArr (imgB (F := Ideal) (m ((c : Thread nD τ).loc main_arg0))) (conT (F := Ideal) (m ((c : Thread nD τ).loc main_arg1)))
            (wg (F := Ideal) (m ((c : Thread nD τ).loc main_arg4)))) := by
  rw [tail_eq m c, final m c, V_v10 m c, V_v13 m c, V_v42 m c]

/-- The run. -/
theorem run : θ_run defs (onTc (τ := τ) (main (F := Ideal))) ⟨m, fun _ => 0, ρ⟩ fun r => ∀ c : Dev nD,
      r.2.mem ((c.tc : Thread nD τ).loc main_v67)
        = tail (F := Ideal) (m ((c : Thread nD τ).loc main_arg2)) (m ((c : Thread nD τ).loc main_arg3))
            (simArr (imgB (F := Ideal) (m ((c : Thread nD τ).loc main_arg0))) (conT (F := Ideal) (m ((c : Thread nD τ).loc main_arg1)))
              (wg (F := Ideal) (m ((c : Thread nD τ).loc main_arg4))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v67 (Pipeline.mem_restRefs_of main_v67 (by decide) (by decide))).trans (result m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.KernelRun

end
-- ==== Proof.SimAlgebra.lean ====
/-
  THE MASKED MEAN AS A BLOCK-DIAGONAL PRODUCT, ON THE EXTENDED REALS.

  The reference averages, for each sample c, the 32 per-concept maxima a_w against a 0/1 mask μ_w and divides the sum
  by the sample's length L. The kernel instead multiplies the row of all 1024 = 32 · 32 maxima by a block-diagonal
  matrix whose column c holds, in rows 32c … 32c + 31, the weights μ_w · (1/L) (or 0 when L is not positive) and
  zeros elsewhere. Two laws join the two:
    * a sum over 1024 rows against such a column keeps only the 32 rows of block c (every other term is x · 0 = 0,
      which holds for every extended real x);
    * for L > 0 the factor 1/L is a nonnegative real, and multiplication by a nonnegative real distributes over sums
      of extended reals whatever their terms; for L < 0 the mask is identically zero and both sides vanish.
  The length L = 0 is excluded: there the reference divides zero by zero.
-/
import Idealize.ShloMosaic.PureOps.Ideal.Laws

noncomputable section

open scoped BigOperators

namespace Cert.SimAlgebra

open Idealize.ShloMosaic

/-- Multiplication by a nonnegative real distributes over a finite sum of extended reals. -/
theorem sum_mul_coe {ι : Type} (s : Finset ι) (f : ι → EReal) (k : ℝ) (hk : 0 ≤ k) :
    (∑ i ∈ s, f i) * (k : EReal) = ∑ i ∈ s, f i * (k : EReal) := by
  classical
  induction s using Finset.induction_on with
  | empty => simp
  | insert a s ha ih =>
    rw [Finset.sum_insert ha, Finset.sum_insert ha,
      EReal.right_distrib_of_nonneg_of_ne_top (by exact_mod_cast hk) (EReal.coe_ne_top k), ih]

/-- Row `32 c + w` of the 1024 rows: concept `w` of sample `c`. -/
def rowOf (c w : Fin 32) : Fin 1024 := ⟨c.val * 32 + w.val, by have := c.isLt; have := w.isLt; omega⟩

/-- A sum over the 1024 rows against a column supported on block `c` is the sum over that block's 32 rows. -/
theorem blockdiag_sum (f g : Fin 1024 → EReal) (c : Fin 32) :
    ∑ r : Fin 1024, f r * (if r.val / 32 = c.val then g r else 0)
      = ∑ w : Fin 32, f (rowOf c w) * g (rowOf c w) := by
  let e : Fin 32 × Fin 32 ≃ Fin 1024 := (finProdFinEquiv : Fin 32 × Fin 32 ≃ Fin (32 * 32))
  have he : ∀ a b : Fin 32, (e (a, b)).val = b.val + 32 * a.val := fun a b => rfl
  rw [← Equiv.sum_comp e, Fintype.sum_prod_type]
  rw [Finset.sum_eq_single c]
  · refine Finset.sum_congr rfl fun w _ => ?_
    have hrow : e (c, w) = rowOf c w := Fin.ext (by rw [he]; show _ = c.val * 32 + w.val; omega)
    rw [hrow, if_pos (by show (c.val * 32 + w.val) / 32 = c.val; have := w.isLt; omega)]
  · intro a _ hac
    refine Finset.sum_eq_zero fun b _ => ?_
    rw [if_neg (by
      rw [he]
      have := b.isLt
      have hne : a.val ≠ c.val := fun h => hac (Fin.ext h)
      omega), mul_zero]
  · intro h; exact absurd (Finset.mem_univ c) h

/-- The weighted sum with the guarded reciprocal length is the masked sum divided by the length, for every nonzero
    integer length: for a positive length by distributivity of a nonnegative real factor, for a negative one because
    the mask vanishes. -/
theorem masked_mean (a μ : Fin 32 → EReal) (L : ℤ) (hL : L ≠ 0) (hμ : L < 0 → ∀ w, μ w = 0) :
    ∑ w : Fin 32, a w * (μ w * (if (0 : EReal) < ((L : ℝ) : EReal) then Ideal.div 1 (max ((L : ℝ) : EReal) 1) else 0))
      = Ideal.div (∑ w : Fin 32, a w * μ w) ((L : ℝ) : EReal) := by
  have hL' : (L : ℝ) ≠ 0 := by exact_mod_cast hL
  rcases lt_or_gt_of_ne hL with hneg | hpos
  · have hnot : ¬ (0 : EReal) < ((L : ℝ) : EReal) := by
      rw [not_lt]
      have : (L : ℝ) ≤ 0 := by exact_mod_cast le_of_lt hneg
      exact_mod_cast this
    simp only [if_neg hnot, hμ hneg, mul_zero, Finset.sum_const_zero]
    rw [Ideal.div_coe hL', zero_mul]
  · have h1 : (1 : ℝ) ≤ (L : ℝ) := by exact_mod_cast hpos
    have hpos' : (0 : EReal) < ((L : ℝ) : EReal) := by
      have : (0 : ℝ) < (L : ℝ) := by linarith
      exact_mod_cast this
    have hmax : max ((L : ℝ) : EReal) 1 = ((L : ℝ) : EReal) := max_eq_left (by exact_mod_cast h1)
    rw [if_pos hpos', hmax, Ideal.div_coe hL', Ideal.div_coe hL', one_mul,
      sum_mul_coe _ _ _ (by have : (0 : ℝ) < (L : ℝ) := by linarith
                            exact le_of_lt (one_div_pos.mpr this))]
    exact Finset.sum_congr rfl fun w _ => (mul_assoc _ _ _).symm

end Cert.SimAlgebra

end
-- ==== Proof.KOperandRead.lean ====
/-
  THE KERNEL'S CONCEPT AND WEIGHT OPERANDS, ENTRY BY ENTRY.

  The concept operand is the normalised concept array with its two leading axes merged (row 32 c + w is concept w of
  sample c) and transposed: its entry (d, 32 c + w) is feature d of that concept. The weight operand is block
  diagonal: its entry (r, c) is, when r / 32 = c, the weight of the concept row r stands for — the 0/1 mask of the
  concepts below the sample's length times the guarded reciprocal of that length — and zero otherwise. The row index
  r / 32 is computed by a floor division of the row counter by 32, which on 0 … 1023 is the plain quotient.
-/
import proofs.«137095_j58832462021082_2_alg».proof.Proof.KTerms
import proofs.«137095_j58832462021082_2_alg».proof.Proof.SimAlgebra
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.OperandRead

open Cert.KernelIdeal Cert.KernelIdeal.Gen Cert.KernelIdeal.KHost Cert.SimAlgebra
open Idealize.ShloMosaic Idealize.ShloMosaic.ValueIdx

/-- The mask entry of concept `w` of a sample of length word `l`: the 0/1 float of `w < l` (signed). -/
def maskAt (l : BitVec 32) (w : Fin 32) : EReal :=
  FloatOps.uitofp (F := Ideal) .f32 (IntOp.cmpi .slt (BitVec.ofNat 32 w.val) l)

/-- The length word as a float. -/
def lenAt (l : BitVec 32) : EReal := FloatOps.sitofp (F := Ideal) .f32 l

/-- The guarded reciprocal of a length: `1 / max(len, 1)` where `len > 0`, zero elsewhere. -/
def invAt (l : BitVec 32) : EReal :=
  Scalar.select (FloatOps.cmpf (F := Ideal) (φ := .f32) .ogt (lenAt l) (Ideal.ofBits .f32 0x00000000#32))
    (Ideal.div (Ideal.ofBits .f32 0x3F800000#32) (max (lenAt l) (Ideal.ofBits .f32 0x3F800000#32)))
    (Ideal.ofBits .f32 0x00000000#32)

/-- A merged-and-transposed array reads, at (d, 32 c + w), the original at (c, w, d). -/
theorem mergedT_apply (X : FVec Ideal S32x32x256 .f32) (d : Fin 256) (c w : Fin 32) :
    transpose S256x1024 [1, 0]
        (shapeCast S1024x256 (truncf .bf16 X bitsLt_bf16_f32) shapeCasts_S32x32x256_S1024x256)
        transposes_S1024x256_S256x1024_1_0 (ix2 d (rowOf c w))
      = X (ix3 c w d) := by
  refine (transpose_ix2_apply _ _ d (rowOf c w)).trans ?_
  refine (shapeCast_apply _ _ (ix2 (rowOf c w) d) (ix3 c w d) (by
    rw [Shape.rowMajor_val_three, Shape.rowMajor_val_two]
    show (c.val * 32 + w.val) * 256 + d.val = (c.val * 32 + w.val) * 256 + d.val
    rfl)).trans ?_
  rfl

/-- The floor division of the row counter by 32 is the plain quotient on 0 … 1023. -/
theorem rowIx_apply : ∀ r : Fin 1024, rowIx (ix1 r) = BitVec.ofNat 32 (r.val / 32) := by
  decide +kernel

/-- The weight of concept `w` of sample `c`. -/
theorem wgt_apply (a4 : IVec S32 32) (c w : Fin 32) :
    wgt (F := Ideal) a4 (ix2 c w) = maskAt (a4 (ix1 c)) w * invAt (a4 (ix1 c)) := by
  unfold wgt
  show _ * _ = _
  refine congrArg₂ (· * ·) ?_ ?_
  · unfold maskF maskAt
    show FloatOps.uitofp .f32 (IntOp.cmpi .slt _ _) = _
    refine congrArg (fun b => FloatOps.uitofp (F := Ideal) .f32 b) ?_
    refine congrArg₂ (IntOp.cmpi .slt) ?_ ?_
    · refine (broadcastInDim_apply _ _ _ (ix2 c w) (ix2 (0 : Fin 1) w) (fun a => by
        match a with
        | ⟨0, _⟩ => rfl
        | ⟨1, _⟩ => rfl)).trans ?_
      exact broadcastInDim_apply _ _ _ (ix2 (0 : Fin 1) w) (ix1 w) (fun a => by
        match a with
        | ⟨0, _⟩ => rfl)
    · refine (broadcastInDim_apply _ _ _ (ix2 c w) (ix2 c (0 : Fin 1)) (fun a => by
        match a with
        | ⟨0, _⟩ => rfl
        | ⟨1, _⟩ => rfl)).trans ?_
      exact broadcastInDim_apply _ _ _ (ix2 c (0 : Fin 1)) (ix1 c) (fun a => by
        match a with
        | ⟨0, _⟩ => rfl)
  · refine (broadcastInDim_apply _ _ _ (ix2 c w) (ix2 c (0 : Fin 1)) (fun a => by
      match a with
      | ⟨0, _⟩ => rfl
      | ⟨1, _⟩ => rfl)).trans ?_
    refine (broadcastInDim_apply _ _ _ (ix2 c (0 : Fin 1)) (ix1 c) (fun a => by
      match a with
      | ⟨0, _⟩ => rfl)).trans ?_
    rfl

/-- The weight operand at (r, c): the weight of row `r`'s concept on the diagonal block, zero off it. -/
theorem wg_apply (a4 : IVec S32 32) (r : Fin 1024) (c : Fin 32) :
    wg (F := Ideal) a4 (ix2 r c)
      = if r.val / 32 = c.val then
          wgt (F := Ideal) a4 (ix2 (⟨r.val / 32, by have := r.isLt; omega⟩ : Fin 32) (⟨r.val % 32, Nat.mod_lt _ (by decide)⟩ : Fin 32))
        else 0 := by
  unfold wg
  show Scalar.select (IntOp.cmpi .eq _ _) _ _ = _
  have hrow : (broadcastInDim S1024x32 ![0, 1] bcast_S1024x1_S1024x32_0_1
      (broadcastInDim S1024x1 ![0] bcast_S1024_S1024x1_0 rowIx)) (ix2 r c) = BitVec.ofNat 32 (r.val / 32) := by
    refine (broadcastInDim_apply _ _ _ (ix2 r c) (ix2 r (0 : Fin 1)) (fun a => by
      match a with
      | ⟨0, _⟩ => rfl
      | ⟨1, _⟩ => rfl)).trans ?_
    refine (broadcastInDim_apply _ _ _ (ix2 r (0 : Fin 1)) (ix1 r) (fun a => by
      match a with
      | ⟨0, _⟩ => rfl)).trans ?_
    exact rowIx_apply r
  have hcol : (broadcastInDim S1024x32 ![0, 1] bcast_S1x32_S1024x32_0_1
      (broadcastInDim S1x32 ![1] bcast_S32_S1x32_1 (iotaInDim S32 32 0))) (ix2 r c) = BitVec.ofNat 32 c.val := by
    refine (broadcastInDim_apply _ _ _ (ix2 r c) (ix2 (0 : Fin 1) c) (fun a => by
      match a with
      | ⟨0, _⟩ => rfl
      | ⟨1, _⟩ => rfl)).trans ?_
    exact broadcastInDim_apply _ _ _ (ix2 (0 : Fin 1) c) (ix1 c) (fun a => by
      match a with
      | ⟨0, _⟩ => rfl)
  have hval : (broadcastInDim S1024x32 ![0, 1] bcast_S1024x1_S1024x32_0_1
      (broadcastInDim S1024x1 ![0] bcast_S1024_S1024x1_0
        (shapeCast S1024 (wgt (F := Ideal) a4) shapeCasts_S32x32_S1024))) (ix2 r c)
      = wgt (F := Ideal) a4 (ix2 (⟨r.val / 32, by have := r.isLt; omega⟩ : Fin 32) (⟨r.val % 32, Nat.mod_lt _ (by decide)⟩ : Fin 32)) := by
    refine (broadcastInDim_apply _ _ _ (ix2 r c) (ix2 r (0 : Fin 1)) (fun a => by
      match a with
      | ⟨0, _⟩ => rfl
      | ⟨1, _⟩ => rfl)).trans ?_
    refine (broadcastInDim_apply _ _ _ (ix2 r (0 : Fin 1)) (ix1 r) (fun a => by
      match a with
      | ⟨0, _⟩ => rfl)).trans ?_
    exact shapeCast_apply _ _ (ix1 r) _ (by
      rw [Shape.rowMajor_val_two, Shape.rowMajor_val_one]
      show r.val / 32 * 32 + r.val % 32 = r.val
      omega)
  have hzero : (broadcastInDim S1024x32 ![] bcast_S_S1024x32 (id (constant (F := Ideal) S_ .f32 0x00000000#32))) (ix2 r c) = (0 : EReal) := by
    show Ideal.ofBits .f32 0x00000000#32 = 0
    exact Ideal.ofBits_zero_f32
  rw [hrow, hcol, hval, hzero]
  have hr : r.val / 32 < 32 := by have := r.isLt; omega
  by_cases h : r.val / 32 = c.val
  · rw [if_pos h]
    have heq : (BitVec.ofNat 32 (r.val / 32) == BitVec.ofNat 32 c.val) = true := by
      rw [h]; exact beq_self_eq_true _
    show Scalar.select (BitVec.ofBool (BitVec.ofNat 32 (r.val / 32) == BitVec.ofNat 32 c.val)) _ _ = _
    rw [heq]
    rfl
  · rw [if_neg h]
    have hne : (BitVec.ofNat 32 (r.val / 32) == BitVec.ofNat 32 c.val) = false := by
      rw [beq_eq_false_iff_ne]
      intro e
      have := congrArg BitVec.toNat e
      simp only [BitVec.toNat_ofNat] at this
      have hc := c.isLt
      omega
    show Scalar.select (BitVec.ofBool (BitVec.ofNat 32 (r.val / 32) == BitVec.ofNat 32 c.val)) _ _ = _
    rw [hne]
    rfl

end Cert.KernelIdeal.OperandRead

end
-- ==== Proof.RefSimRead.lean ====
/-
  THE REFERENCE'S SIMILARITY MATRIX, ENTRY BY ENTRY.

  Entry (m, c) of the reference's similarity matrix is the sum over the 32 concepts w of sample c of
      ( max_{n < 576} ∑_{d < 256} con[c, w, d] · img[m, n, d] ) · mask[c, w] ,
  started from the zero pattern, divided by the length of sample c as a float: the contraction over the 256 features
  (a product with four free axes, then a transposition to (image, sample, patch, concept)), its maximum over the
  patches started from the pattern of -∞, the 0/1 mask of the concepts below the sample's length, the sum over
  the concepts and the quotient.
-/
import proofs.«137095_j58832462021082_2_alg».proof.Proof.RefRun
import Idealize.ShloMosaic.Lib.ValueIdx
import Idealize.ShloMosaic.Lib.Pipeline.Value
import Idealize.ShloMosaic.PureOps.Ideal.Laws

noncomputable section

open scoped BigOperators

namespace Cert.ReferenceIdeal.SimRead

open Cert.ReferenceIdeal Cert.ReferenceIdeal.Gen Idealize.ShloMosaic Idealize.ShloMosaic.ValueIdx

/-- The maximum over the patches of image `m` of the products with concept `w` of sample `c`. -/
def refMax (img : (⟨3, ![32, 576, 256]⟩ : Shape).Idx → EReal) (con : (⟨3, ![32, 32, 256]⟩ : Shape).Idx → EReal)
    (m c w : Fin 32) : EReal :=
  (Finset.univ : Finset (Fin 576)).fold max (Ideal.ofBits .f32 0xFF800000#32)
    (fun n => ∑ d : Fin 256, con (ix3 c w d) * img (ix3 m n d))

/-- The mask entry of concept `w` of a sample of length word `l`: the 0/1 float of `w < l` (signed). -/
def maskAt (l : BitVec 32) (w : Fin 32) : EReal :=
  FloatOps.uitofp (F := Ideal) .f32 (IntOp.cmpi .slt (BitVec.ofNat 32 w.val) l)

/-- The length word as a float. -/
def lenAt (l : BitVec 32) : EReal := FloatOps.sitofp (F := Ideal) .f32 l

theorem lhs0 (i : S32x32x32x576.Idx) (k : (dot_S32x32x256_S32x576x256_S32x32x32x576_2_2_01_01_n_n).contr.Idx) :
    ((dot_S32x32x256_S32x576x256_S32x32x32x576_2_2_01_01_n_n).lhsIdx i k 0).val = (i 0).val := by
  unfold DotDims.lhsIdx
  rw [dif_neg (show ¬(0 : Fin 3) ∈ (dot_S32x32x256_S32x576x256_S32x32x32x576_2_2_01_01_n_n).lhsBatch by decide),
    dif_pos (show (0 : Fin 3) ∈ (dot_S32x32x256_S32x576x256_S32x32x32x576_2_2_01_01_n_n).lhsNonContracting by decide)]
  rfl

theorem lhs1 (i : S32x32x32x576.Idx) (k : (dot_S32x32x256_S32x576x256_S32x32x32x576_2_2_01_01_n_n).contr.Idx) :
    ((dot_S32x32x256_S32x576x256_S32x32x32x576_2_2_01_01_n_n).lhsIdx i k 1).val = (i 1).val := by
  unfold DotDims.lhsIdx
  rw [dif_neg (show ¬(1 : Fin 3) ∈ (dot_S32x32x256_S32x576x256_S32x32x32x576_2_2_01_01_n_n).lhsBatch by decide),
    dif_pos (show (1 : Fin 3) ∈ (dot_S32x32x256_S32x576x256_S32x32x32x576_2_2_01_01_n_n).lhsNonContracting by decide)]
  rfl

theorem rhs0 (i : S32x32x32x576.Idx) (k : (dot_S32x32x256_S32x576x256_S32x32x32x576_2_2_01_01_n_n).contr.Idx) :
    ((dot_S32x32x256_S32x576x256_S32x32x32x576_2_2_01_01_n_n).rhsIdx i k 0).val = (i 2).val := by
  unfold DotDims.rhsIdx
  rw [dif_neg (show ¬(0 : Fin 3) ∈ (dot_S32x32x256_S32x576x256_S32x32x32x576_2_2_01_01_n_n).rhsBatch by decide),
    dif_pos (show (0 : Fin 3) ∈ (dot_S32x32x256_S32x576x256_S32x32x32x576_2_2_01_01_n_n).rhsNonContracting by decide)]
  rfl

theorem rhs1 (i : S32x32x32x576.Idx) (k : (dot_S32x32x256_S32x576x256_S32x32x32x576_2_2_01_01_n_n).contr.Idx) :
    ((dot_S32x32x256_S32x576x256_S32x32x32x576_2_2_01_01_n_n).rhsIdx i k 1).val = (i 3).val := by
  unfold DotDims.rhsIdx
  rw [dif_neg (show ¬(1 : Fin 3) ∈ (dot_S32x32x256_S32x576x256_S32x32x32x576_2_2_01_01_n_n).rhsBatch by decide),
    dif_pos (show (1 : Fin 3) ∈ (dot_S32x32x256_S32x576x256_S32x32x32x576_2_2_01_01_n_n).rhsNonContracting by decide)]
  rfl

/-- The contraction over the features at (sample, concept, image, patch). -/
theorem dot_apply (con : FVec Ideal S32x32x256 .f32) (img : FVec Ideal S32x576x256 .f32) (c w m : Fin 32) (n : Fin 576) :
    Host.dotGeneral dot_S32x32x256_S32x576x256_S32x32x32x576_2_2_01_01_n_n none con img (ix4 c w m n)
      = ∑ d : Fin 256, con (ix3 c w d) * img (ix3 m n d) := by
  show FloatOps.dotGeneral _ _ _ _ _ _ = _
  rw [Ideal.dotGeneral_apply,
    ← Equiv.sum_comp (contrEquiv1 dot_S32x32x256_S32x576x256_S32x32x32x576_2_2_01_01_n_n 256 rfl rfl).symm]
  refine Finset.sum_congr rfl fun k _ => ?_
  have hk := contrEquiv1_symm_val dot_S32x32x256_S32x576x256_S32x32x32x576_2_2_01_01_n_n 256 rfl rfl k
  have el : (dot_S32x32x256_S32x576x256_S32x32x32x576_2_2_01_01_n_n).lhsIdx (ix4 c w m n)
      ((contrEquiv1 dot_S32x32x256_S32x576x256_S32x32x32x576_2_2_01_01_n_n 256 rfl rfl).symm k) = ix3 c w k :=
    funext fun a => Fin.ext (by
      match a with
      | ⟨0, _⟩ => exact lhs0 _ _
      | ⟨1, _⟩ => exact lhs1 _ _
      | ⟨2, _⟩ => exact (DotDims.lhsIdx_val_of_single _ rfl _ _).trans hk)
  have er : (dot_S32x32x256_S32x576x256_S32x32x32x576_2_2_01_01_n_n).rhsIdx (ix4 c w m n)
      ((contrEquiv1 dot_S32x32x256_S32x576x256_S32x32x32x576_2_2_01_01_n_n 256 rfl rfl).symm k) = ix3 m n k :=
    funext fun a => Fin.ext (by
      match a with
      | ⟨0, _⟩ => exact rhs0 _ _
      | ⟨1, _⟩ => exact rhs1 _ _
      | ⟨2, _⟩ => exact (DotDims.rhsIdx_val_of_single _ rfl _ _).trans hk)
  rw [el, er]

theorem red_patch : S32x32x576x32.Reduces [2] S32x32x32 := by decide
theorem red_concept : S32x32x32.Reduces [2] S32x32 := by decide

/-- The source index over (image, sample, concept) with the patch inserted. -/
theorem lift_patch (m c w : Fin 32) (n : Fin 576) : red_patch.lift (ix3 m c w) n = ix4 m c n w := by
  funext a
  refine Fin.ext ?_
  match a with
  | ⟨0, _⟩ => rfl
  | ⟨1, _⟩ => rfl
  | ⟨2, _⟩ => rfl
  | ⟨3, _⟩ => rfl

/-- The source index over (image, sample) with the concept inserted. -/
theorem lift_concept (m c w : Fin 32) : red_concept.lift (ix2 m c) w = ix3 m c w := by
  funext a
  refine Fin.ext ?_
  match a with
  | ⟨0, _⟩ => rfl
  | ⟨1, _⟩ => rfl
  | ⟨2, _⟩ => rfl

/-- The maximum over the patches of the transposed contraction. -/
theorem max_apply (con : FVec Ideal S32x32x256 .f32) (img : FVec Ideal S32x576x256 .f32) (m c w : Fin 32) :
    Host.reduce FloatOps.maximumf
        (transpose S32x32x576x32 [2, 0, 3, 1]
          (Host.dotGeneral dot_S32x32x256_S32x576x256_S32x32x32x576_2_2_01_01_n_n none con img)
          transposes_S32x32x32x576_S32x32x576x32_2_0_3_1)
        (constant (F := Ideal) S_ .f32 0xFF800000#32) reducesTo_S32x32x576x32_S32x32x32_d2 h_S_ (ix3 m c w)
      = refMax img con m c w := by
  refine (Host.reduce_eq_fold_single FloatOps.maximumf _ _ reducesTo_S32x32x576x32_S32x32x32_d2 red_patch h_S_ (ix3 m c w)).trans ?_
  unfold refMax
  refine congrArg (fun f => (Finset.univ : Finset (Fin 576)).fold max (Ideal.ofBits .f32 0xFF800000#32) f) ?_
  refine funext fun (n : Fin 576) => ?_
  refine (congrArg (transpose S32x32x576x32 [2, 0, 3, 1]
    (Host.dotGeneral dot_S32x32x256_S32x576x256_S32x32x32x576_2_2_01_01_n_n none con img)
    transposes_S32x32x32x576_S32x32x576x32_2_0_3_1) (lift_patch m c w n)).trans ?_
  refine (transpose_apply _ _ _ (ix4 m c n w) (ix4 c w m n) (fun b => by
    match b with
    | ⟨0, _⟩ => rfl
    | ⟨1, _⟩ => rfl
    | ⟨2, _⟩ => rfl
    | ⟨3, _⟩ => rfl)).trans ?_
  exact dot_apply con img c w m n

/-- The mask, broadcast over the images, at (image, sample, concept). -/
theorem mask_apply (a4 : IVec S32 32) (m c w : Fin 32) :
    (broadcastInDim S32x32x32 ![0, 1, 2] bcast_S1x32x32_S32x32x32_0_1_2
      (broadcastInDim S1x32x32 ![1, 2] bcast_S32x32_S1x32x32_1_2
        (uitofp (F := Ideal) .f32
          (cmpi .slt
            (broadcastInDim S32x32 ![0, 1] bcast_S1x32_S32x32_0_1
              (broadcastInDim S1x32 ![1] bcast_S32_S1x32_1 (iotaInDim S32 32 0)))
            (broadcastInDim S32x32 ![0, 1] bcast_S32x1_S32x32_0_1
              (broadcastInDim S32x1 ![0] bcast_S32_S32x1_0 a4)))))) (ix3 m c w)
      = maskAt (a4 (ix1 c)) w := by
  refine (broadcastInDim_apply _ _ _ (ix3 m c w) (ix3 (0 : Fin 1) c w) (fun a => by
    match a with
    | ⟨0, _⟩ => rfl
    | ⟨1, _⟩ => rfl
    | ⟨2, _⟩ => rfl)).trans ?_
  refine (broadcastInDim_apply _ _ _ (ix3 (0 : Fin 1) c w) (ix2 c w) (fun a => by
    match a with
    | ⟨0, _⟩ => rfl
    | ⟨1, _⟩ => rfl)).trans ?_
  unfold maskAt
  show FloatOps.uitofp .f32 (IntOp.cmpi .slt _ _) = _
  refine congrArg (fun b => FloatOps.uitofp (F := Ideal) .f32 b) ?_
  refine congrArg₂ (IntOp.cmpi .slt) ?_ ?_
  · refine (broadcastInDim_apply _ _ _ (ix2 c w) (ix2 (0 : Fin 1) w) (fun a => by
      match a with
      | ⟨0, _⟩ => rfl
      | ⟨1, _⟩ => rfl)).trans ?_
    exact broadcastInDim_apply _ _ _ (ix2 (0 : Fin 1) w) (ix1 w) (fun a => by
      match a with
      | ⟨0, _⟩ => rfl)
  · refine (broadcastInDim_apply _ _ _ (ix2 c w) (ix2 c (0 : Fin 1)) (fun a => by
      match a with
      | ⟨0, _⟩ => rfl
      | ⟨1, _⟩ => rfl)).trans ?_
    exact broadcastInDim_apply _ _ _ (ix2 c (0 : Fin 1)) (ix1 c) (fun a => by
      match a with
      | ⟨0, _⟩ => rfl)

/-- The lengths as floats, broadcast over the images, at (image, sample). -/
theorem len_apply (a4 : IVec S32 32) (m c : Fin 32) :
    (broadcastInDim S32x32 ![0, 1] bcast_S1x32_S32x32_0_1
      (broadcastInDim S1x32 ![1] bcast_S32_S1x32_1 (sitofp (F := Ideal) .f32 a4))) (ix2 m c) = lenAt (a4 (ix1 c)) := by
  refine (broadcastInDim_apply _ _ _ (ix2 m c) (ix2 (0 : Fin 1) c) (fun a => by
    match a with
    | ⟨0, _⟩ => rfl
    | ⟨1, _⟩ => rfl)).trans ?_
  exact broadcastInDim_apply _ _ _ (ix2 (0 : Fin 1) c) (ix1 c) (fun a => by
    match a with
    | ⟨0, _⟩ => rfl)

/-- A masked sum over the concepts divided by a length array, at (image, sample). -/
theorem quot_apply (MX MSK : FVec Ideal S32x32x32 .f32) (LEN : FVec Ideal S32x32 .f32) (m c : Fin 32) :
    Host.divf (Host.reduceAdd (mulf MX MSK) (constant (F := Ideal) S_ .f32 0x00000000#32) reducesTo_S32x32x32_S32x32_d2 h_S_) LEN (ix2 m c)
      = Ideal.div (Ideal.ofBits .f32 0x00000000#32 + ∑ w : Fin 32, MX (ix3 m c w) * MSK (ix3 m c w)) (LEN (ix2 m c)) := by
  show Ideal.div (Host.reduceAdd (mulf MX MSK) (constant (F := Ideal) S_ .f32 0x00000000#32) reducesTo_S32x32x32_S32x32_d2 h_S_ (ix2 m c)) (LEN (ix2 m c)) = _
  refine congrArg (fun a => Ideal.div a (LEN (ix2 m c))) ?_
  refine (Ideal.hostReduceAdd_single reducesTo_S32x32x32_S32x32_d2 red_concept (mulf MX MSK) (Ideal.ofBits .f32 0x00000000#32) (ix2 m c)).trans ?_
  refine congrArg (fun s => Ideal.ofBits .f32 0x00000000#32 + s) ?_
  refine Finset.sum_congr rfl fun (w : Fin 32) _ => ?_
  exact congrArg (fun i => MX i * MSK i) (lift_concept m c w)

/-- THE REFERENCE'S ENTRY. -/
theorem sim_apply (img : FVec Ideal S32x576x256 .f32) (con : FVec Ideal S32x32x256 .f32) (a4 : IVec S32 32) (m c : Fin 32) :
    Cert.ReferenceIdeal.RefRun.sim (F := Ideal) img con a4 (ix2 m c)
      = Ideal.div (Ideal.ofBits .f32 0x00000000#32 + ∑ w : Fin 32, refMax img con m c w * maskAt (a4 (ix1 c)) w)
          (lenAt (a4 (ix1 c))) := by
  unfold Cert.ReferenceIdeal.RefRun.sim
  refine (quot_apply _ _ _ m c).trans ?_
  refine congrArg₂ Ideal.div ?_ (len_apply a4 m c)
  refine congrArg (fun s => Ideal.ofBits .f32 0x00000000#32 + s) ?_
  refine Finset.sum_congr rfl fun (w : Fin 32) _ => ?_
  exact congrArg₂ (· * ·) (max_apply con img m c w) (mask_apply a4 m c w)

end Cert.ReferenceIdeal.SimRead

end
-- ==== Proof.SimBridge.lean ====
/-
  THE KERNEL'S SIMILARITY ENTRY IS THE REFERENCE'S.

  With T the merged and transposed concept array and G the block-diagonal weight matrix built from the lengths, the
  kernel's entry (i, c) is ∑_{r < 1024} colmax_r · G[r, c]. Only the 32 rows of block c survive; on them colmax is
  the reference's per-concept maximum (the two contractions differ by the order of each product's factors) and
  G is mask · guarded reciprocal length; the masked-mean law then gives the reference's quotient, for every sample
  whose length is not zero.
-/
import proofs.«137095_j58832462021082_2_alg».proof.Proof.KOperandRead
import proofs.«137095_j58832462021082_2_alg».proof.Proof.RefSimRead
import proofs.«137095_j58832462021082_2_alg».proof.Proof.RowPayload
import proofs.«137095_j58832462021082_2_alg».proof.Proof.SimAlgebra

noncomputable section

open scoped BigOperators

namespace Cert.SimBridge

open Idealize.ShloMosaic Idealize.ShloMosaic.ValueIdx Cert.SimAlgebra
open Cert.KernelIdeal.RowValue Cert.KernelIdeal.OperandRead Cert.ReferenceIdeal.SimRead

theorem one_bits : Ideal.ofBits .f32 0x3F800000#32 = 1 := by
  simp [Ideal.ofBits, Ideal.ieee, -EReal.coe_mul]; norm_num

/-- The length word as a float is its signed integer. -/
theorem lenAt_eq (l : BitVec 32) : Cert.KernelIdeal.OperandRead.lenAt l = ((l.toInt : ℝ) : EReal) := rfl

/-- The guarded reciprocal, decoded. -/
theorem invAt_eq (l : BitVec 32) :
    invAt l = if (0 : EReal) < ((l.toInt : ℝ) : EReal) then Ideal.div 1 (max ((l.toInt : ℝ) : EReal) 1) else 0 := by
  unfold invAt
  rw [lenAt_eq, Ideal.ofBits_zero_f32, one_bits]
  show Scalar.select (Ideal.cmp .ogt _ _) _ _ = _
  unfold Ideal.cmp Scalar.select
  by_cases h : (0 : EReal) < ((l.toInt : ℝ) : EReal)
  · simp [h]
  · simp [h]

/-- A negative length leaves the mask empty. -/
theorem mask_neg (l : BitVec 32) (hl : l.toInt < 0) (w : Fin 32) : Cert.KernelIdeal.OperandRead.maskAt l w = 0 := by
  have hw : (BitVec.ofNat 32 w.val).toInt = (w.val : Int) := by revert w; decide
  have hs : (BitVec.ofNat 32 w.val).slt l = false := by
    simp only [BitVec.slt, decide_eq_false_iff_not, not_lt]
    rw [hw]; omega
  unfold Cert.KernelIdeal.OperandRead.maskAt
  show (((BitVec.ofBool ((BitVec.ofNat 32 w.val).slt l)).toNat : ℝ) : EReal) = 0
  rw [hs]
  simp

/-- THE ENTRY: the kernel's contraction against the block-diagonal weights is the reference's masked mean. -/
theorem entry_eq (img : (⟨3, ![32, 576, 256]⟩ : Shape).Idx → EReal) (con : (⟨3, ![32, 32, 256]⟩ : Shape).Idx → EReal)
    (a4 : (⟨1, ![32]⟩ : Shape).Idx → BitVec 32) (hne : ∀ c : Fin 32, a4 (ix1 c) ≠ 0#32)
    (T : (⟨2, ![256, 1024]⟩ : Shape).Idx → EReal) (hT : ∀ (d : Fin 256) (c w : Fin 32), T (ix2 d (rowOf c w)) = con (ix3 c w d))
    (i c : Fin 32) :
    entry T (Cert.KernelIdeal.KHost.wg (F := Ideal) a4) (fun n d => img (ix3 i n d)) c
      = Ideal.div (Ideal.ofBits .f32 0x00000000#32
          + ∑ w : Fin 32, refMax img con i c w * Cert.ReferenceIdeal.SimRead.maskAt (a4 (ix1 c)) w)
          (Cert.ReferenceIdeal.SimRead.lenAt (a4 (ix1 c))) := by
  unfold entry
  have h1 : ∀ k : Fin 1024, colMax T (fun n d => img (ix3 i n d)) k * Cert.KernelIdeal.KHost.wg (F := Ideal) a4 (ix2 k c)
      = colMax T (fun n d => img (ix3 i n d)) k * (if k.val / 32 = c.val then
          Cert.KernelIdeal.KHost.wgt (F := Ideal) a4 (ix2 (⟨k.val / 32, by have := k.isLt; omega⟩ : Fin 32)
            (⟨k.val % 32, Nat.mod_lt _ (by decide)⟩ : Fin 32)) else 0) :=
    fun k => congrArg (colMax T (fun n d => img (ix3 i n d)) k * ·) (wg_apply a4 k c)
  rw [Finset.sum_congr rfl fun k _ => h1 k]
  rw [blockdiag_sum (fun k => colMax T (fun n d => img (ix3 i n d)) k)
    (fun k => Cert.KernelIdeal.KHost.wgt (F := Ideal) a4 (ix2 (⟨k.val / 32, by have := k.isLt; omega⟩ : Fin 32)
      (⟨k.val % 32, Nat.mod_lt _ (by decide)⟩ : Fin 32))) c]
  have h2 : ∀ w : Fin 32, colMax T (fun n d => img (ix3 i n d)) (rowOf c w)
      * Cert.KernelIdeal.KHost.wgt (F := Ideal) a4 (ix2 (⟨(rowOf c w).val / 32, by have := (rowOf c w).isLt; omega⟩ : Fin 32)
          (⟨(rowOf c w).val % 32, Nat.mod_lt _ (by decide)⟩ : Fin 32))
      = refMax img con i c w * (Cert.KernelIdeal.OperandRead.maskAt (a4 (ix1 c)) w * invAt (a4 (ix1 c))) := by
    intro w
    have e0 : (⟨(rowOf c w).val / 32, by have := (rowOf c w).isLt; omega⟩ : Fin 32) = c :=
      Fin.ext (by show (c.val * 32 + w.val) / 32 = c.val; have := w.isLt; omega)
    have e1 : (⟨(rowOf c w).val % 32, Nat.mod_lt _ (by decide)⟩ : Fin 32) = w :=
      Fin.ext (by show (c.val * 32 + w.val) % 32 = w.val; have := w.isLt; omega)
    rw [e0, e1, wgt_apply]
    refine congrArg (· * _) ?_
    unfold colMax refMax
    refine congrArg (fun f => (Finset.univ : Finset (Fin 576)).fold max (Ideal.ofBits .f32 0xFF800000#32) f) ?_
    funext n
    refine Finset.sum_congr rfl fun d _ => ?_
    rw [hT, mul_comm]
  rw [Finset.sum_congr rfl fun w _ => h2 w]
  simp only [invAt_eq]
  have hL : (a4 (ix1 c)).toInt ≠ 0 := fun h => hne c (BitVec.eq_of_toInt_eq (by simpa using h))
  rw [masked_mean (fun w => refMax img con i c w) (fun w => Cert.KernelIdeal.OperandRead.maskAt (a4 (ix1 c)) w)
    (a4 (ix1 c)).toInt hL (fun hl w => mask_neg _ hl w)]
  rw [Ideal.ofBits_zero_f32, zero_add]
  rfl

end Cert.SimBridge

end
-- ==== Proof.ResultEq.lean ====
/-
  THE TWO RESULTS ARE ONE FUNCTION OF THE ARGUMENTS.

  Both programs normalise the image and concept rows by the same operations, build a [32, 32] similarity matrix and
  apply the same loss to it. The similarity matrices agree entry by entry whenever no length is zero (the kernel's
  block-diagonal product against the reference's masked mean), so the losses agree.
-/
import proofs.«137095_j58832462021082_2_alg».proof.Proof.KTerms
import proofs.«137095_j58832462021082_2_alg».proof.Proof.RefRun
import proofs.«137095_j58832462021082_2_alg».proof.Proof.SimBridge

noncomputable section

open scoped BigOperators

namespace Cert.ResultEq

open Idealize.ShloMosaic Idealize.ShloMosaic.ValueIdx Cert.SimAlgebra
open Cert.KernelIdeal.RowValue

/-- The kernel's image operand is the reference's normalised image array (a change of float format is the identity). -/
theorem img_eq (a0 : FVec Ideal Cert.KernelIdeal.S32x576x256 .f32) :
    (Cert.KernelIdeal.KHost.imgB (F := Ideal) a0 : (⟨3, ![32, 576, 256]⟩ : Shape).Idx → EReal)
      = Cert.ReferenceIdeal.RefRun.imgN (F := Ideal) a0 := rfl

/-- The kernel's concept operand at (d, 32 c + w) is the reference's normalised concept array at (c, w, d). -/
theorem con_eq (a1 : FVec Ideal Cert.KernelIdeal.S32x32x256 .f32) (d : Fin 256) (c w : Fin 32) :
    (Cert.KernelIdeal.KHost.conT (F := Ideal) a1 : (⟨2, ![256, 1024]⟩ : Shape).Idx → EReal) (ix2 d (rowOf c w))
      = Cert.ReferenceIdeal.RefRun.conN (F := Ideal) a1 (ix3 c w d) := by
  unfold Cert.KernelIdeal.KHost.conT
  refine (Cert.KernelIdeal.OperandRead.mergedT_apply _ d c w).trans ?_
  rfl

/-- The two losses are one function of the scale, the bias and the similarity matrix. -/
theorem tail_eq (a2 a3 : FVec Ideal Cert.KernelIdeal.S1 .f32) (s : FVec Ideal Cert.KernelIdeal.S32x32 .f32) :
    Cert.KernelIdeal.KHost.tail (F := Ideal) a2 a3 s = Cert.ReferenceIdeal.RefRun.tail (F := Ideal) a2 a3 s := rfl

/-- The similarity matrices agree when no length is zero. -/
theorem sim_eq (a0 : FVec Ideal Cert.KernelIdeal.S32x576x256 .f32) (a1 : FVec Ideal Cert.KernelIdeal.S32x32x256 .f32)
    (a4 : IVec Cert.KernelIdeal.S32 32) (hne : ∀ c : Fin 32, a4 (ix1 c) ≠ 0#32) :
    simArr (Cert.KernelIdeal.KHost.imgB (F := Ideal) a0) (Cert.KernelIdeal.KHost.conT (F := Ideal) a1)
        (Cert.KernelIdeal.KHost.wg (F := Ideal) a4)
      = Cert.ReferenceIdeal.RefRun.sim (F := Ideal) (Cert.ReferenceIdeal.RefRun.imgN a0) (Cert.ReferenceIdeal.RefRun.conN a1) a4 := by
  funext i
  obtain ⟨m, c, rfl⟩ : ∃ (m c : Fin 32), i = ix2 m c := ⟨i 0, i 1, eq_ix2 i⟩
  rw [Cert.ReferenceIdeal.SimRead.sim_apply]
  show entry (Cert.KernelIdeal.KHost.conT (F := Ideal) a1) (Cert.KernelIdeal.KHost.wg (F := Ideal) a4)
    (fun n d => Cert.KernelIdeal.KHost.imgB (F := Ideal) a0 (ix3 m n d)) c = _
  rw [img_eq]
  exact Cert.SimBridge.entry_eq (Cert.ReferenceIdeal.RefRun.imgN (F := Ideal) a0) (Cert.ReferenceIdeal.RefRun.conN (F := Ideal) a1) a4 hne
    (Cert.KernelIdeal.KHost.conT (F := Ideal) a1) (fun d c w => con_eq a1 d c w) m c

/-- THE RESULTS. -/
theorem result_eq (a0 : FVec Ideal Cert.KernelIdeal.S32x576x256 .f32) (a1 : FVec Ideal Cert.KernelIdeal.S32x32x256 .f32)
    (a2 a3 : FVec Ideal Cert.KernelIdeal.S1 .f32) (a4 : IVec Cert.KernelIdeal.S32 32) (hne : ∀ c : Fin 32, a4 (ix1 c) ≠ 0#32) :
    Cert.ReferenceIdeal.RefRun.tail (F := Ideal) a2 a3
        (Cert.ReferenceIdeal.RefRun.sim (F := Ideal) (Cert.ReferenceIdeal.RefRun.imgN a0) (Cert.ReferenceIdeal.RefRun.conN a1) a4)
      = Cert.KernelIdeal.KHost.tail (F := Ideal) a2 a3
          (simArr (Cert.KernelIdeal.KHost.imgB (F := Ideal) a0) (Cert.KernelIdeal.KHost.conT (F := Ideal) a1)
            (Cert.KernelIdeal.KHost.wg (F := Ideal) a4)) := by
  rw [sim_eq a0 a1 a4 hne]
  exact (tail_eq a2 a3 _).symm

end Cert.ResultEq

end
-- ==== Proof.PreDecode.lean ====
/-
  THE PRECONDITION, DECODED AT THE LENGTHS.

  The precondition is a conjunction whose last conjunct says that every entry of the lengths array differs from
  zero (an all-reduction by `and` of the entrywise comparison with the zero word). A conjunction of 0/1 words that is 1
  has every conjunct 1, and an all-reduction that is 1 has every entry 1: so no length is the zero word.
-/
import proofs.«137095_j58832462021082_2_alg».proof.Pre_finite_inputs
import Idealize.ShloMosaic.PureOps.Ideal
import Idealize.ShloMosaic.Lib.ReduceAll
import Idealize.ShloMosaic.Lib.ValueIdx

noncomputable section

namespace Cert.PreDecode

open Idealize.ShloMosaic Idealize.ShloMosaic.ValueIdx Cert.Pre_finite_inputs

theorem ofBool_eq_one (b : Bool) : BitVec.ofBool b = 1#1 ↔ b = true := by cases b <;> decide
theorem and1 : ∀ (a b : BitVec 1), IntOp.andi a b = 1#1 ↔ a = 1#1 ∧ b = 1#1 := by decide

instance : Subsingleton Cert.Pre_finite_inputs.S_.Idx := ⟨fun a b => funext fun d => d.elim0⟩

variable [Cert.Pre_finite_inputs.Facts]
open Cert.Pre_finite_inputs.Facts

/-- Under the precondition no length is the zero word. -/
theorem lengths_ne_zero (a0 : FVec Ideal S32x576x256 .f32) (a1 : FVec Ideal S32x32x256 .f32) (a2 a3 : FVec Ideal S1 .f32)
    (a4 : IVec S32 32) (h : Cert.Pre_finite_inputs.fn (F := Ideal) a0 a1 a2 a3 a4 = fun _ => 1#1) (c : Fin 32) :
    a4 (ix1 c) ≠ 0#32 := by
  have e := congrFun h ix0
  unfold Cert.Pre_finite_inputs.fn Cert.Pre_finite_inputs.fn_part1 at e
  have e' : IntOp.andi _ (Host.reduce IntOp.andi (cmpi .ne a4 (broadcastInDim S32 ![] bcast_S_S32 (constantI S_ 32 0#32)))
      (constantI S_ 1 1#1) reducesTo_S32_S_d0 h_S_ ix0) = 1#1 := e
  obtain ⟨-, h21⟩ := (and1 _ _).1 e'
  have hx := Host.reduce_andi_all _ _ _ _ ix0 h21 (ix1 c)
  have hx' : BitVec.ofBool (a4 (ix1 c) != 0#32) = 1#1 := hx
  rw [ofBool_eq_one] at hx'
  simpa using hx'

end Cert.PreDecode

end
-- ==== Proof.lean ====
/-
  The kernel computes, for 32 images of 576 patch rows and 32 samples of up to 32 concept rows (all rows of 256
  features, divided by their Euclidean norms floored at 1e-12), the similarity
      sim[i, c] = ∑_w ( max_n ⟨patch n of image i, concept w of sample c⟩ ) · mask[c, w] · (1 / len[c])
  as a product of the row of the 1024 per-concept maxima with a block-diagonal weight matrix, and from it the loss
  -mean(log_sigmoid(±(t · sim + b))) clipped as the reference does. The reference computes the same masked sum and
  divides it by the length. On the extended reals the two agree whenever no length is zero: a sum against a
  block-diagonal column keeps one block; the two contractions differ by the order of the factors; a nonnegative real
  factor distributes over a sum of extended reals; and for a negative length both sides vanish because the mask
  does. At length zero the reference divides zero by zero, which is why the precondition excludes it. The loss is the
  same composition of operations in both programs and is never opened.

  Modules: the reference's run (RefRun) and its similarity entry (RefSimRead); the kernel body's row (RowPayload), a grid
  point's block (BlockValue), the array after the region (ArrayValue), the host operations around the region (KTerms,
  KHost), the operands entry by entry (KOperandRead); the algebra (SimAlgebra), the two entries joined (SimBridge), the
  two results joined (ResultEq), the precondition at the lengths (PreDecode), the kernel's run read (KernelRun).
-/
import proofs.«137095_j58832462021082_2_alg».proof.Defs
import proofs.«137095_j58832462021082_2_alg».proof.Proof.Gen.Kernel
import proofs.«137095_j58832462021082_2_alg».proof.Proof.Gen.Kernel.Frame
import proofs.«137095_j58832462021082_2_alg».proof.Proof.Gen.KernelIdeal
import proofs.«137095_j58832462021082_2_alg».proof.Proof.Gen.KernelIdeal.Frame
import proofs.«137095_j58832462021082_2_alg».proof.Proof.Gen.ReferenceIdeal
import proofs.«137095_j58832462021082_2_alg».proof.Proof.Gen.Pre_finite_inputs
import proofs.«137095_j58832462021082_2_alg».proof.Proof.RefRun
import proofs.«137095_j58832462021082_2_alg».proof.Proof.KernelRun
import proofs.«137095_j58832462021082_2_alg».proof.Proof.ResultEq
import proofs.«137095_j58832462021082_2_alg».proof.Proof.PreDecode
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

/-- From memories agreeing on the arguments both programs end at one value: the reference's loss of its similarity
    matrix is the kernel's loss of its own, the matrices being equal when no length is zero. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KernelIdeal.KernelRun.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2]
  exact Cert.ResultEq.result_eq _ _ _ _ _ (fun c' => Cert.PreDecode.lengths_ne_zero _ _ _ _ _ (hpre c) c')

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
